-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1x1024 : Shape := ⟨2, ![1, 1024]⟩
abbrev S1024x2048 : Shape := ⟨2, ![1024, 2048]⟩
abbrev S1024 : Shape := ⟨1, ![1024]⟩
abbrev S1024x1 : Shape := ⟨2, ![1024, 1]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_

variable [Facts]

def fn_part1 {F : FTy → Type} [FloatOps F] (main_arg4 : FVec F S1024x1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1 .f32 := Host.absf main_arg4
  let main_cst_6 : FVec F S_ .f32 := constant S_ .f32 0x7F800000#32
  let main_v20 : FVec F S1024x1 .f32 := broadcastInDim S1024x1 ![] bcast_S_S1024x1 main_cst_6
  let main_v21 : IVec S1024x1 1 := cmpf .olt main_v19 main_v20
  let main_c_7 : IVec S_ 1 := constantI S_ 1 1#1
  let main_v22 : IVec S_ 1 := (fun x v => Host.reduce IntOp.andi x v reducesTo_S1024x1_S_d0_1 h_S_) main_v21 main_c_7
  let main_v23 : IVec S_ 1 := andi main_v18 main_v22
  main_v23

def fn {F : FTy → Type} [FloatOps F] (main_arg0 : FVec F S16384x1024 .f32) (main_arg1 : FVec F S1x1024 .f32) (main_arg2 : FVec F S1024x2048 .f32) (main_arg3 : FVec F S1024 .f32) (main_arg4 : FVec F S1024x1 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S16384x1024 : Shape := ⟨2, ![16384, 1024]⟩
abbrev S1x1024 : Shape := ⟨2, ![1, 1024]⟩
abbrev S1024x2048 : Shape := ⟨2, ![1024, 2048]⟩
abbrev S1024 : Shape := ⟨1, ![1024]⟩
abbrev S1024x1 : Shape := ⟨2, ![1024, 1]⟩
abbrev S1024x1024 : Shape := ⟨2, ![1024, 1024]⟩
abbrev S2x1x1 : Shape := ⟨3, ![2, 1, 1]⟩
abbrev S2x1x1024 : Shape := ⟨3, ![2, 1, 1024]⟩
abbrev S1x1x1 : Shape := ⟨3, ![1, 1, 1]⟩
abbrev S1x1x1024 : Shape := ⟨3, ![1, 1, 1024]⟩
abbrev S1x1 : Shape := ⟨2, ![1, 1]⟩
abbrev S1 : Shape := ⟨1, ![1]⟩
abbrev S_ : Shape := ⟨0, ![]⟩

abbrev nBuf : Space → Nat
  | .hbm => 45
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2048, .f32⟩
  | .hbm, ⟨3, _⟩ => ⟨S1024, .f32⟩
  | .hbm, ⟨4, _⟩ => ⟨S1024x1, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S16384x1024, .bf16⟩
  | .hbm, ⟨15, _⟩ => ⟨S2x1x1, .f32⟩
  | .hbm, ⟨16, _⟩ => ⟨S2x1x1, .f32⟩
  | .hbm, ⟨17, _⟩ => ⟨S2x1x1024, .f32⟩
  | .hbm, ⟨18, _⟩ => ⟨S1x1x1, .f32⟩
  | .hbm, ⟨19, _⟩ => ⟨S_, .f32⟩
  | .hbm, ⟨20, _⟩ => ⟨S1x1x1, .f32⟩
  | .hbm, ⟨21, _⟩ => ⟨S_, .f32⟩
  | .hbm, ⟨22, _⟩ => ⟨S1x1x1, .f32⟩
  | .hbm, ⟨23, _⟩ => ⟨S_, .f32⟩
  | .hbm, ⟨24, _⟩ => ⟨S1x1x1, .f32⟩
  | .hbm, ⟨25, _⟩ => ⟨S_, .f32⟩
  | .hbm, ⟨26, _⟩ => ⟨S1x1x1024, .f32⟩
  | .hbm, ⟨27, _⟩ => ⟨S1x1024, .f32⟩
  | .hbm, ⟨28, _⟩ => ⟨S1x1x1024, .f32⟩
  | .hbm, ⟨29, _⟩ => ⟨S1x1024, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1024, .f32⟩
  | .local _ .vmem, ⟨10, _⟩ => ⟨S1x1x1024, .f32⟩
  | .local _ .vmem, ⟨11, _⟩ => ⟨S1x1, .f32⟩
  | .local _ .vmem, ⟨12, _⟩ => ⟨S1x1, .f32⟩
  | .local _ .vmem, ⟨13, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v51 : BitVec 1 := Scalar.cmpi .eq arg1 c7_i32
  let v52 : BitVec 32 := Scalar.extui v51
  let c0_i32_24 : BitVec 32 := 0#32
  let v53 : BitVec 1 := Scalar.cmpi .ne v52 c0_i32_24
  v53

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  slices_S1024x2048_S1024x1024_0_0 : S1024x2048.Slices ![0, 0] S1024x1024
  slices_S1024x2048_S1024x1024_0_1024 : S1024x2048.Slices ![0, 1024] S1024x1024
  transposes_S1024x1024_S1024x1024_1_0 : S1024x1024.Transposes [1, 0] S1024x1024
  bitsLt_bf16_f32 : FTy.bits .bf16 < FTy.bits .f32
  bcast_S1024_S1x1024_1 : S1024.BroadcastsInDim S1x1024 (![1] : Fin 1 → Fin S1x1024.rank)
  transposes_S1024x1_S1x1024_1_0 : S1024x1.Transposes [1, 0] S1x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  broadcasts_S1x1_S1024x1 : S1x1.Broadcasts S1024x1
  broadcasts_S1024x1_S1024x1024 : S1024x1.Broadcasts S1024x1024
  reduces_S1024x1024_S1024_2 : S1024x1024.Reduces [0] S1024
  shapeCasts_S1024_S1x1024 : S1024.ShapeCasts S1x1024
  broadcasts_S1x1_S1x1024 : S1x1.Broadcasts S1x1024
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  slices_S2x1x1024_S1x1x1024_0_0_0 : S2x1x1024.Slices ![0, 0, 0] S1x1x1024
  slices_S2x1x1024_S1x1x1024_1_0_0 : S2x1x1024.Slices ![1, 0, 0] S1x1x1024
  bcast_S_S1x1024 : S_.BroadcastsInDim S1x1024 (![] : Fin 0 → Fin S1x1024.rank)
  dot_S1x1024_S1024x1024_S1x1024_1_0_0_1_n_n_wf : DotDims.WF S1x1024 S1024x1024 S1x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .bf16 = 32 ∨ (Rect.block (s := S16384x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S2x1x1024.size a
  hwx0_6 : ∀ i : grid0.Coords, EltTy.bits .f32 = 32 ∨ (Rect.block (s := S2x1x1024) S1x1x1024.size (cc0_transform_6 i) (hinb0_6 i)).WholeWords (EltTy.packing .f32)

variable [Facts₀]

def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v9) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10_0) S1x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_1) S1x1x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_2) S1x1x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S16384x1024 : Shape := ⟨2, ![16384, 1024]⟩
abbrev S1x1024 : Shape := ⟨2, ![1, 1024]⟩
abbrev S1024x2048 : Shape := ⟨2, ![1024, 2048]⟩
abbrev S1024 : Shape := ⟨1, ![1024]⟩
abbrev S1024x1 : Shape := ⟨2, ![1024, 1]⟩
abbrev S16384x2048 : Shape := ⟨2, ![16384, 2048]⟩
abbrev S2048x1024 : Shape := ⟨2, ![2048, 1024]⟩
abbrev S16384x1 : Shape := ⟨2, ![16384, 1]⟩
abbrev S1x16384 : Shape := ⟨2, ![1, 16384]⟩
abbrev S_ : Shape := ⟨0, ![]⟩
abbrev S1 : Shape := ⟨1, ![1]⟩
abbrev S1x1 : Shape := ⟨2, ![1, 1]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2048, .f32⟩
  | .hbm, ⟨3, _⟩ => ⟨S1024, .f32⟩
  | .hbm, ⟨4, _⟩ => ⟨S1024x1, .f32⟩
  | .hbm, ⟨5, _⟩ => ⟨S16384x1024, .f32⟩
  | .hbm, ⟨6, _⟩ => ⟨S16384x2048, .f32⟩
  | .hbm, ⟨7, _⟩ => ⟨S2048x1024, .f32⟩
  | .hbm, ⟨8, _⟩ => ⟨S16384x1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1, .f32⟩
  | .hbm, ⟨14, _⟩ => ⟨S1x16384, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S1, .f32⟩
  | .hbm, ⟨19, _⟩ => ⟨S1, .f32⟩
  | .hbm, ⟨20, _⟩ => ⟨S1x1, .f32⟩
  | .hbm, ⟨21, _⟩ => ⟨S1x16384, .f32⟩
  | .hbm, ⟨22, _⟩ => ⟨S1x16384, .f32⟩
  | .hbm, ⟨23, _⟩ => ⟨S1x16384, .f32⟩
  | .hbm, ⟨24, _⟩ => ⟨S_, .f32⟩
  | .hbm, ⟨25, _⟩ => ⟨S1, .f32⟩
  | .hbm, ⟨26, _⟩ => ⟨S1x1, .f32⟩
  | .hbm, ⟨27, _⟩ => ⟨S1x16384, .f32⟩
  | .hbm, ⟨28, _⟩ => ⟨S1x16384, .f32⟩
  | .hbm, ⟨29, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  bcast_S1x1024_S16384x1024_0_1 : S1x1024.BroadcastsInDim S16384x1024 (![0, 1] : Fin 2 → Fin S16384x1024.rank)
  concatenates_S16384x1024_S16384x1024_S16384x2048_d1 : Shape.Concatenates [S16384x1024, S16384x1024] S16384x2048 1
  transposes_S1024x2048_S2048x1024_1_0 : S1024x2048.Transposes [1, 0] S2048x1024
  bcast_S1024_S1x1024_1 : S1024.BroadcastsInDim S1x1024 (![1] : Fin 1 → Fin S1x1024.rank)
  transposes_S16384x1_S1x16384_1_0 : S16384x1.Transposes [1, 0] S1x16384
  reducesTo_S1x16384_S1_d1 : S1x16384.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x16384_0_1 : S1x1.BroadcastsInDim S1x16384 (![0, 1] : Fin 2 → Fin S1x16384.rank)
  dot_S16384x2048_S2048x1024_S16384x1024_1_0_0_1_n_n_wf : DotDims.WF S16384x2048 S2048x1024 S16384x1024 [1] [0] [0] [1] [] []
  dot_S16384x1024_S1024x1_S16384x1_1_0_0_1_n_n_wf : DotDims.WF S16384x1024 S1024x1 S16384x1 [1] [0] [0] [1] [] []
  dot_S1x16384_S16384x1024_S1x1024_1_0_0_1_n_n_wf : DotDims.WF S1x16384 S16384x1024 S1x1024 [1] [0] [0] [1] [] []

variable [Facts₀]

def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf
def dot_S16384x1024_S1024x1_S16384x1_1_0_0_1_n_n : DotDims S16384x1024 S1024x1 S16384x1 where
  lhsContracting := [1]
  rhsContracting := [0]
  lhsNonContracting := [0]
  rhsNonContracting := [1]
  lhsBatch := []
  rhsBatch := []
  wf := dot_S16384x1024_S1024x1_S16384x1_1_0_0_1_n_n_wf
def dot_S1x16384_S16384x1024_S1x1024_1_0_0_1_n_n : DotDims S1x16384 S16384x1024 S1x1024 where
  lhsContracting := [1]
  rhsContracting := [0]
  lhsNonContracting := [0]
  rhsNonContracting := [1]
  lhsBatch := []
  rhsBatch := []
  wf := dot_S1x16384_S16384x1024_S1x1024_1_0_0_1_n_n_wf

class Facts : Prop extends Facts₀ where

variable [Facts]
-- ==== Proof.Pieces.lean ====
/-
  What one run of the body leaves behind, case by case, as the body's own arithmetic.

  The body keeps three running quantities between grid points: the shift m, the sum l of shifted exponentials, and
  the weighted row sum acc.  At the first point of each half of the rows it first resets them (m to a large negative
  number, l and acc to zero) and then updates them; at the other points it updates what the point before left; at the
  last point of a half it also copies the three quantities to the outputs.  Each lemma below says that the contents
  left in one buffer are one payload of the body — the update applied to the reset values (first point), or to the
  carried values (other points) — and, at a half's last point, that each output block is the recast of the updated value.
-/
import proofs.«144839_j35124242547322_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The zero offset of a rank-2 block. -/
theorem hz2 : (![0, 0] : Fin 2 → Nat) = fun _ => 0 := funext fun a => by fin_cases a <;> rfl
/-- The zero offset of a rank-3 block. -/
theorem hz3 : (![0, 0, 0] : Fin 3 → Nat) = fun _ => 0 := funext fun a => by fin_cases a <;> rfl

/-- First point of a half: the shift left is the update of the reset shift. -/
theorem sA0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1024 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1024 .f32) (harg11 : arg11.IsWhole) (hc0 : cond0_0 i) (hc1 : ¬cond0_1 i)
    (x0 : Vec F S1024x1024 .bf16) (x1 : Vec F S1024x1024 .bf16) (x2 : Vec F S1x1024 .f32) (x3 : Vec F S1x1024 .f32) :
    sout0_A_0 c i arg2 harg2 arg3 harg3 arg4 harg4 arg5 harg5 arg6 harg6 arg7 harg7 arg8 harg8 arg9 harg9 arg10 harg10 arg11 harg11 hc0 hc1 x0 x1 x2 x3 = k0_pay2 (k0_pay11 x0 x1 x2 x3 k0_pay6) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S1x1) hz2]
  simp only [View.readCov_unit_zero (S := S1x1) _ hz2, View.readCov_unit_zero (S := S1x1024) _ hz2, View.readAt_eq_ld, harg2.read_unread, harg3.read_unread, harg4.read_unread, harg5.read_unread, harg9.read_unread, harg10.read_unread, harg11.read_unread, View.ld_unit_zero (S := S1024x1024) hz2, View.ld_unit_zero (S := S1x1024) hz2, View.ld_unit_zero (S := S1x1) hz2]

/-- First point of a half: the exponential sum left is the update of the reset shift and the zero sum. -/
theorem sA1 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1024 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1024 .f32) (harg11 : arg11.IsWhole) (hc0 : cond0_0 i) (hc1 : ¬cond0_1 i)
    (x0 : Vec F S1024x1024 .bf16) (x1 : Vec F S1024x1024 .bf16) (x2 : Vec F S1x1024 .f32) (x3 : Vec F S1x1024 .f32) :
    sout0_A_1 c i arg2 harg2 arg3 harg3 arg4 harg4 arg5 harg5 arg6 harg6 arg7 harg7 arg8 harg8 arg9 harg9 arg10 harg10 arg11 harg11 hc0 hc1 x0 x1 x2 x3 = k0_pay14 x0 x1 x2 x3 k0_pay6 k0_pay7 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S1x1) hz2]
  simp only [View.readCov_unit_zero (S := S1x1) _ hz2, View.readCov_unit_zero (S := S1x1024) _ hz2, View.readAt_eq_ld, harg2.read_unread, harg3.read_unread, harg4.read_unread, harg5.read_unread, harg9.read_unread, harg10.read_unread, harg11.read_unread, View.ld_unit_zero (S := S1024x1024) hz2, View.ld_unit_zero (S := S1x1024) hz2, View.ld_unit_zero (S := S1x1) hz2]

/-- First point of a half: the weighted row sum left is the update of the reset shift and the zero row. -/
theorem sA2 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1024 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1024 .f32) (harg11 : arg11.IsWhole) (hc0 : cond0_0 i) (hc1 : ¬cond0_1 i)
    (x0 : Vec F S1024x1024 .bf16) (x1 : Vec F S1024x1024 .bf16) (x2 : Vec F S1x1024 .f32) (x3 : Vec F S1x1024 .f32) :
    sout0_A_2 c i arg2 harg2 arg3 harg3 arg4 harg4 arg5 harg5 arg6 harg6 arg7 harg7 arg8 harg8 arg9 harg9 arg10 harg10 arg11 harg11 hc0 hc1 x0 x1 x2 x3 = k0_pay1 (k0_pay9 x0) (k0_pay12 x0 x1 x2 x3 k0_pay6) (k0_pay13 x0 x1 x2 x3 k0_pay6) k0_pay8 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S1x1024) hz2]
  simp only [View.readCov_unit_zero (S := S1x1) _ hz2, View.readCov_unit_zero (S := S1x1024) _ hz2, View.readAt_eq_ld, harg2.read_unread, harg3.read_unread, harg4.read_unread, harg5.read_unread, harg9.read_unread, harg10.read_unread, harg11.read_unread, View.ld_unit_zero (S := S1024x1024) hz2, View.ld_unit_zero (S := S1x1024) hz2, View.ld_unit_zero (S := S1x1) hz2]

/-- An inner point: the shift left is the update of the carried shift. -/
theorem sB0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1024 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1024 .f32) (harg11 : arg11.IsWhole) (hc0 : ¬cond0_0 i) (hc1 : ¬cond0_1 i)
    (x0 : Vec F S1024x1024 .bf16) (x1 : Vec F S1024x1024 .bf16) (x2 : Vec F S1x1024 .f32) (x3 : Vec F S1x1024 .f32) (xs0 : Vec F S1x1 .f32) (xs1 : Vec F S1x1 .f32) (xs2 : Vec F S1x1024 .f32) :
    sout0_B_0 c i arg2 harg2 arg3 harg3 arg4 harg4 arg5 harg5 arg6 harg6 arg7 harg7 arg8 harg8 arg9 harg9 arg10 harg10 arg11 harg11 hc0 hc1 x0 x1 x2 x3 xs0 xs1 xs2 = k0_pay2 (k0_pay11 x0 x1 x2 x3 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg9.read_unread, harg10.read_unread, harg11.read_unread, View.ld_unit_zero (S := S1024x1024) hz2, View.ld_unit_zero (S := S1x1024) hz2, View.ld_unit_zero (S := S1x1) hz2]

/-- An inner point: the exponential sum left is the update of the carried shift and sum. -/
theorem sB1 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1024 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1024 .f32) (harg11 : arg11.IsWhole) (hc0 : ¬cond0_0 i) (hc1 : ¬cond0_1 i)
    (x0 : Vec F S1024x1024 .bf16) (x1 : Vec F S1024x1024 .bf16) (x2 : Vec F S1x1024 .f32) (x3 : Vec F S1x1024 .f32) (xs0 : Vec F S1x1 .f32) (xs1 : Vec F S1x1 .f32) (xs2 : Vec F S1x1024 .f32) :
    sout0_B_1 c i arg2 harg2 arg3 harg3 arg4 harg4 arg5 harg5 arg6 harg6 arg7 harg7 arg8 harg8 arg9 harg9 arg10 harg10 arg11 harg11 hc0 hc1 x0 x1 x2 x3 xs0 xs1 xs2 = k0_pay14 x0 x1 x2 x3 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg9.read_unread, harg10.read_unread, harg11.read_unread, View.ld_unit_zero (S := S1024x1024) hz2, View.ld_unit_zero (S := S1x1024) hz2, View.ld_unit_zero (S := S1x1) hz2]

/-- An inner point: the weighted row sum left is the update of the carried shift and row. -/
theorem sB2 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1024 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1024 .f32) (harg11 : arg11.IsWhole) (hc0 : ¬cond0_0 i) (hc1 : ¬cond0_1 i)
    (x0 : Vec F S1024x1024 .bf16) (x1 : Vec F S1024x1024 .bf16) (x2 : Vec F S1x1024 .f32) (x3 : Vec F S1x1024 .f32) (xs0 : Vec F S1x1 .f32) (xs1 : Vec F S1x1 .f32) (xs2 : Vec F S1x1024 .f32) :
    sout0_B_2 c i arg2 harg2 arg3 harg3 arg4 harg4 arg5 harg5 arg6 harg6 arg7 harg7 arg8 harg8 arg9 harg9 arg10 harg10 arg11 harg11 hc0 hc1 x0 x1 x2 x3 xs0 xs1 xs2 = k0_pay1 (k0_pay9 x0) (k0_pay12 x0 x1 x2 x3 xs0) (k0_pay13 x0 x1 x2 x3 xs0) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg9.read_unread, harg10.read_unread, harg11.read_unread, View.ld_unit_zero (S := S1024x1024) hz2, View.ld_unit_zero (S := S1x1024) hz2, View.ld_unit_zero (S := S1x1) hz2]

/-- Last point of a half: the shift left is the update of the carried shift. -/
theorem sC0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1024 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1024 .f32) (harg11 : arg11.IsWhole) (hc0 : ¬cond0_0 i) (hc1 : cond0_1 i)
    (x0 : Vec F S1024x1024 .bf16) (x1 : Vec F S1024x1024 .bf16) (x2 : Vec F S1x1024 .f32) (x3 : Vec F S1x1024 .f32) (xs0 : Vec F S1x1 .f32) (xs1 : Vec F S1x1 .f32) (xs2 : Vec F S1x1024 .f32) :
    sout0_C_0 c i arg2 harg2 arg3 harg3 arg4 harg4 arg5 harg5 arg6 harg6 arg7 harg7 arg8 harg8 arg9 harg9 arg10 harg10 arg11 harg11 hc0 hc1 x0 x1 x2 x3 xs0 xs1 xs2 = k0_pay2 (k0_pay11 x0 x1 x2 x3 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero hz2]
  simp only [View.readCov_unit_zero (S := S1x1) _ hz2, View.readCov_unit_zero (S := S1x1024) _ hz2, View.readAt_eq_ld, harg2.read_unread, harg3.read_unread, harg4.read_unread, harg5.read_unread, harg9.read_unread, harg10.read_unread, harg11.read_unread, View.ld_unit_zero (S := S1024x1024) hz2, View.ld_unit_zero (S := S1x1024) hz2, View.ld_unit_zero (S := S1x1) hz2]

/-- Last point of a half: the exponential sum left is the update of the carried shift and sum. -/
theorem sC1 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1024 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1024 .f32) (harg11 : arg11.IsWhole) (hc0 : ¬cond0_0 i) (hc1 : cond0_1 i)
    (x0 : Vec F S1024x1024 .bf16) (x1 : Vec F S1024x1024 .bf16) (x2 : Vec F S1x1024 .f32) (x3 : Vec F S1x1024 .f32) (xs0 : Vec F S1x1 .f32) (xs1 : Vec F S1x1 .f32) (xs2 : Vec F S1x1024 .f32) :
    sout0_C_1 c i arg2 harg2 arg3 harg3 arg4 harg4 arg5 harg5 arg6 harg6 arg7 harg7 arg8 harg8 arg9 harg9 arg10 harg10 arg11 harg11 hc0 hc1 x0 x1 x2 x3 xs0 xs1 xs2 = k0_pay14 x0 x1 x2 x3 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero hz2]
  simp only [View.readCov_unit_zero (S := S1x1) _ hz2, View.readCov_unit_zero (S := S1x1024) _ hz2, View.readAt_eq_ld, harg2.read_unread, harg3.read_unread, harg4.read_unread, harg5.read_unread, harg9.read_unread, harg10.read_unread, harg11.read_unread, View.ld_unit_zero (S := S1024x1024) hz2, View.ld_unit_zero (S := S1x1024) hz2, View.ld_unit_zero (S := S1x1) hz2]

/-- Last point of a half: the weighted row sum left is the update of the carried shift and row. -/
theorem sC2 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1024 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1024 .f32) (harg11 : arg11.IsWhole) (hc0 : ¬cond0_0 i) (hc1 : cond0_1 i)
    (x0 : Vec F S1024x1024 .bf16) (x1 : Vec F S1024x1024 .bf16) (x2 : Vec F S1x1024 .f32) (x3 : Vec F S1x1024 .f32) (xs0 : Vec F S1x1 .f32) (xs1 : Vec F S1x1 .f32) (xs2 : Vec F S1x1024 .f32) :
    sout0_C_2 c i arg2 harg2 arg3 harg3 arg4 harg4 arg5 harg5 arg6 harg6 arg7 harg7 arg8 harg8 arg9 harg9 arg10 harg10 arg11 harg11 hc0 hc1 x0 x1 x2 x3 xs0 xs1 xs2 = k0_pay1 (k0_pay9 x0) (k0_pay12 x0 x1 x2 x3 xs0) (k0_pay13 x0 x1 x2 x3 xs0) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero hz2]
  simp only [View.readCov_unit_zero (S := S1x1) _ hz2, View.readCov_unit_zero (S := S1x1024) _ hz2, View.readAt_eq_ld, harg2.read_unread, harg3.read_unread, harg4.read_unread, harg5.read_unread, harg9.read_unread, harg10.read_unread, harg11.read_unread, View.ld_unit_zero (S := S1024x1024) hz2, View.ld_unit_zero (S := S1x1024) hz2, View.ld_unit_zero (S := S1x1) hz2]

/-- Last point of a half: the first output block is the updated shift, recast. -/
theorem oC4 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1024 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1024 .f32) (harg11 : arg11.IsWhole) (hc0 : ¬cond0_0 i) (hc1 : cond0_1 i)
    (x0 : Vec F S1024x1024 .bf16) (x1 : Vec F S1024x1024 .bf16) (x2 : Vec F S1x1024 .f32) (x3 : Vec F S1x1024 .f32) (xs0 : Vec F S1x1 .f32) (xs1 : Vec F S1x1 .f32) (xs2 : Vec F S1x1024 .f32) :
    out0_C_4 c i arg2 harg2 arg3 harg3 arg4 harg4 arg5 harg5 arg6 harg6 arg7 harg7 arg8 harg8 arg9 harg9 arg10 harg10 arg11 harg11 hc0 hc1 x0 x1 x2 x3 xs0 xs1 xs2 = k0_pay3 (k0_pay2 (k0_pay11 x0 x1 x2 x3 xs0)) := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero hz3]
  simp only [View.readCov_unit_zero (S := S1x1) _ hz2, View.readCov_unit_zero (S := S1x1024) _ hz2, View.readAt_eq_ld, harg2.read_unread, harg3.read_unread, harg4.read_unread, harg5.read_unread, harg9.read_unread, harg10.read_unread, harg11.read_unread, View.ld_unit_zero (S := S1024x1024) hz2, View.ld_unit_zero (S := S1x1024) hz2, View.ld_unit_zero (S := S1x1) hz2]

/-- Last point of a half: the second output block is the updated exponential sum, recast. -/
theorem oC5 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1024 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1024 .f32) (harg11 : arg11.IsWhole) (hc0 : ¬cond0_0 i) (hc1 : cond0_1 i)
    (x0 : Vec F S1024x1024 .bf16) (x1 : Vec F S1024x1024 .bf16) (x2 : Vec F S1x1024 .f32) (x3 : Vec F S1x1024 .f32) (xs0 : Vec F S1x1 .f32) (xs1 : Vec F S1x1 .f32) (xs2 : Vec F S1x1024 .f32) :
    out0_C_5 c i arg2 harg2 arg3 harg3 arg4 harg4 arg5 harg5 arg6 harg6 arg7 harg7 arg8 harg8 arg9 harg9 arg10 harg10 arg11 harg11 hc0 hc1 x0 x1 x2 x3 xs0 xs1 xs2 = k0_pay4 (k0_pay14 x0 x1 x2 x3 xs0 xs1) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero hz3]
  simp only [View.readCov_unit_zero (S := S1x1) _ hz2, View.readCov_unit_zero (S := S1x1024) _ hz2, View.readAt_eq_ld, harg2.read_unread, harg3.read_unread, harg4.read_unread, harg5.read_unread, harg9.read_unread, harg10.read_unread, harg11.read_unread, View.ld_unit_zero (S := S1024x1024) hz2, View.ld_unit_zero (S := S1x1024) hz2, View.ld_unit_zero (S := S1x1) hz2]

/-- Last point of a half: the third output block is the updated weighted row sum, recast. -/
theorem oC6 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1024 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1024 .f32) (harg11 : arg11.IsWhole) (hc0 : ¬cond0_0 i) (hc1 : cond0_1 i)
    (x0 : Vec F S1024x1024 .bf16) (x1 : Vec F S1024x1024 .bf16) (x2 : Vec F S1x1024 .f32) (x3 : Vec F S1x1024 .f32) (xs0 : Vec F S1x1 .f32) (xs1 : Vec F S1x1 .f32) (xs2 : Vec F S1x1024 .f32) :
    out0_C_6 c i arg2 harg2 arg3 harg3 arg4 harg4 arg5 harg5 arg6 harg6 arg7 harg7 arg8 harg8 arg9 harg9 arg10 harg10 arg11 harg11 hc0 hc1 x0 x1 x2 x3 xs0 xs1 xs2 = k0_pay5 (k0_pay1 (k0_pay9 x0) (k0_pay12 x0 x1 x2 x3 xs0) (k0_pay13 x0 x1 x2 x3 xs0) xs2) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero hz3]
  simp only [View.readCov_unit_zero (S := S1x1) _ hz2, View.readCov_unit_zero (S := S1x1024) _ hz2, View.readAt_eq_ld, harg2.read_unread, harg3.read_unread, harg4.read_unread, harg5.read_unread, harg9.read_unread, harg10.read_unread, harg11.read_unread, View.ld_unit_zero (S := S1024x1024) hz2, View.ld_unit_zero (S := S1x1024) hz2, View.ld_unit_zero (S := S1x1) hz2]

end Cert.KernelIdeal.Pieces

end
-- ==== Proof.LibColumn.lean ====
/-
  A vector kept as a column, read one entry at a time.

  Summing an a×b array along its rows and keeping the axis gives an a×1 column; the column is then spread back over
  the b columns to scale each row.  Two index facts carry this:  a length-a vector recast as an a×1 column holds, at
  (i, 0), the vector's entry i;  and an a×1 column spread to a×b holds, at (p, c), the column's entry (p, 0), whatever
  the column c.  Both are stated for every a and b and for entries of any type.
-/
import Idealize.ShloMosaic.Lib.ValueIdx
import Idealize.ShloMosaic.Lib.Pipeline.Value

namespace Cert.Column

open Idealize.ShloMosaic Idealize.ShloMosaic.ValueIdx

variable {α : Type}

/-- A length-a vector recast as an a×1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column spread over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column
-- ==== Proof.LibOnlineSoftmax.lean ====
/-
  The streaming form of a softmax-weighted sum, over the extended reals with real witnesses.

  For scores `β j` and rows `H j d` (reals), a PARTIAL STATE over the rows `lo ≤ j < hi` with shift `μ` is the triple
      m = μ,   l = ∑ j, exp (β j - μ),   acc d = ∑ j, exp (β j - μ) · H j d.
  Three facts are proved here. (1) Absorbing the next `n` rows under ANY real new shift `μ'` — rescaling the old sums by
  `exp (μ - μ')` and adding the new rows' terms — gives the partial state over the longer range with shift `μ'`
  (`exp (μ - μ') · exp (β j - μ) = exp (β j - μ')`): the new shift need not be a maximum, only real. (2) Two partial states
  over adjacent ranges merge, under the larger of their shifts, into the state over the union. (3) The quotient
  `acc d / l` of a state over all rows does not depend on its shift, and equals the softmax-weighted sum
  `∑ k, (exp (β k - M) / ∑ k', exp (β k' - M)) · H k d` taken with any real `M`: numerator and denominator carry the same
  positive factor `exp (M - μ)`.
  Every step needs the values to be real: distributing a factor over a sum and cancelling it fail at the infinities.
-/
import Idealize.ShloMosaic.PureOps.Ideal
import Mathlib.Analysis.SpecialFunctions.Exp
import Mathlib.Algebra.BigOperators.Intervals
import Mathlib.Algebra.BigOperators.Fin
import Mathlib.Data.EReal.Basic
import Mathlib.Data.Finset.Fold

noncomputable section

namespace Cert.Attn

open Idealize.ShloMosaic Finset

/-- An extended real that is a real number. -/
def IsFin (x : EReal) : Prop := ∃ r : ℝ, x = (r : EReal)

theorem isFin_coe (r : ℝ) : IsFin (r : EReal) := ⟨r, rfl⟩

theorem isFin_of_lt {x : EReal} (h1 : ⊥ < x) (h2 : x < ⊤) : IsFin x := by
  induction x using EReal.rec with
  | bot => exact absurd h1 (lt_irrefl _)
  | coe r => exact ⟨r, rfl⟩
  | top => exact absurd h2 (lt_irrefl _)

theorem IsFin.lt_top {x : EReal} (h : IsFin x) : x < ⊤ := by
  obtain ⟨r, rfl⟩ := h; exact EReal.coe_lt_top r

theorem IsFin.bot_lt {x : EReal} (h : IsFin x) : ⊥ < x := by
  obtain ⟨r, rfl⟩ := h; exact EReal.bot_lt_coe r

theorem IsFin.add {x y : EReal} (hx : IsFin x) (hy : IsFin y) : IsFin (x + y) := by
  obtain ⟨a, rfl⟩ := hx; obtain ⟨b, rfl⟩ := hy; exact ⟨a + b, (EReal.coe_add a b).symm⟩

theorem IsFin.mul {x y : EReal} (hx : IsFin x) (hy : IsFin y) : IsFin (x * y) := by
  obtain ⟨a, rfl⟩ := hx; obtain ⟨b, rfl⟩ := hy; exact ⟨a * b, (EReal.coe_mul a b).symm⟩

theorem IsFin.max {x y : EReal} (hx : IsFin x) (hy : IsFin y) : IsFin (max x y) := by
  rcases max_choice x y with h | h <;> rw [h] <;> assumption

/-- The coercion of a finite real sum is the sum of the coercions. -/
theorem coe_sum {ι : Type*} (s : Finset ι) (f : ι → ℝ) :
    ((∑ i ∈ s, f i : ℝ) : EReal) = ∑ i ∈ s, (f i : EReal) := by
  classical
  refine Finset.induction_on s (by simp) (fun a s ha ih => ?_)
  rw [sum_insert ha, sum_insert ha, EReal.coe_add, ih]

theorem isFin_sum {ι : Type*} (s : Finset ι) (f : ι → EReal) (h : ∀ i ∈ s, IsFin (f i)) : IsFin (∑ i ∈ s, f i) := by
  classical
  revert h
  refine Finset.induction_on s (fun _ => ⟨0, by simp⟩) (fun a s ha ih h => ?_)
  rw [sum_insert ha]
  exact (h a (mem_insert_self a s)).add (ih fun i hi => h i (mem_insert_of_mem hi))

/-- A fold of `max` from a value below `⊤` over values below `⊤` stays below `⊤`. -/
theorem fold_max_lt_top {ι : Type*} (s : Finset ι) (b : EReal) (f : ι → EReal) (hb : b < ⊤) (hf : ∀ i ∈ s, f i < ⊤) :
    s.fold max b f < ⊤ :=
  (Finset.fold_max_lt ⊤).mpr ⟨hb, hf⟩

/-- A sum of consecutive terms from `a`, indexed by `Fin n`, is the sum over the interval. -/
theorem sum_fin_add {M : Type*} [AddCommMonoid M] (f : ℕ → M) (a n : ℕ) :
    ∑ r : Fin n, f (a + r) = ∑ j ∈ Ico a (a + n), f j := by
  rw [Finset.sum_Ico_eq_sum_range, Nat.add_sub_cancel_left, ← Finset.sum_range (fun i => f (a + i))]

variable {δ : Type*}

/-- The partial softmax state over the rows `lo ≤ j < hi`: a real shift, the sum of the shifted exponentials, and
    their weighted sum of the rows, column by column. -/
def Part (β : ℕ → ℝ) (H : ℕ → δ → ℝ) (lo hi : ℕ) (m l : EReal) (acc : δ → EReal) : Prop :=
  ∃ μ : ℝ, m = (μ : EReal) ∧ l = ((∑ j ∈ Ico lo hi, Real.exp (β j - μ) : ℝ) : EReal)
    ∧ ∀ d, acc d = ((∑ j ∈ Ico lo hi, Real.exp (β j - μ) * H j d : ℝ) : EReal)

theorem Part.isFin_m {β : ℕ → ℝ} {H : ℕ → δ → ℝ} {lo hi : ℕ} {m l : EReal} {acc : δ → EReal}
    (h : Part β H lo hi m l acc) : IsFin m := by
  obtain ⟨μ, rfl, -, -⟩ := h; exact ⟨μ, rfl⟩

/-- Over no rows: any real shift, and zero sums. -/
theorem Part.empty (β : ℕ → ℝ) (H : ℕ → δ → ℝ) (lo : ℕ) {m : EReal} (hm : IsFin m) :
    Part β H lo lo m 0 (fun _ => 0) := by
  obtain ⟨ν, rfl⟩ := hm
  exact ⟨ν, rfl, by simp, fun d => by simp⟩

theorem exp_sub_coe (a b : ℝ) : Ideal.exp ((a : EReal) - (b : EReal)) = ((Real.exp (a - b) : ℝ) : EReal) := by
  rw [← EReal.coe_sub, Ideal.exp_coe]

/-- (1) Absorbing the next `n` rows under any real new shift. -/
theorem Part.step {β : ℕ → ℝ} {H : ℕ → δ → ℝ} {lo mid : ℕ} {m l : EReal} {acc : δ → EReal}
    (h : Part β H lo mid m l acc) (hlm : lo ≤ mid) (n : ℕ) {m' : EReal} (hm' : IsFin m') :
    Part β H lo (mid + n) m'
      (Ideal.exp (m - m') * l + ∑ r : Fin n, Ideal.exp ((β (mid + r) : EReal) - m'))
      (fun d => Ideal.exp (m - m') * acc d
        + ∑ r : Fin n, Ideal.exp ((β (mid + r) : EReal) - m') * (H (mid + r) d : EReal)) := by
  obtain ⟨μ, rfl, rfl, hacc⟩ := h
  obtain ⟨μ', rfl⟩ := hm'
  have hc : ∀ j, Real.exp (μ - μ') * Real.exp (β j - μ) = Real.exp (β j - μ') := fun j => by
    rw [← Real.exp_add]; congr 1; ring
  refine ⟨μ', rfl, ?_, fun d => ?_⟩
  · simp only [exp_sub_coe]
    rw [← coe_sum, ← EReal.coe_mul, ← EReal.coe_add, EReal.coe_eq_coe_iff]
    rw [sum_fin_add (fun j => Real.exp (β j - μ')) mid n, Finset.mul_sum]
    simp only [hc]
    exact Finset.sum_Ico_consecutive _ hlm (Nat.le_add_right mid n)
  · dsimp only
    rw [hacc d]
    simp only [exp_sub_coe, ← EReal.coe_mul]
    rw [← coe_sum, ← EReal.coe_add, EReal.coe_eq_coe_iff]
    rw [sum_fin_add (fun j => Real.exp (β j - μ') * H j d) mid n, Finset.mul_sum]
    simp only [← mul_assoc, hc]
    exact Finset.sum_Ico_consecutive _ hlm (Nat.le_add_right mid n)

/-- (2) Two partial states over adjacent ranges merge under the larger shift. -/
theorem Part.merge {β : ℕ → ℝ} {H : ℕ → δ → ℝ} {a b c : ℕ} {m0 l0 m1 l1 : EReal} {acc0 acc1 : δ → EReal}
    (h0 : Part β H a b m0 l0 acc0) (h1 : Part β H b c m1 l1 acc1) (hab : a ≤ b) (hbc : b ≤ c) :
    Part β H a c (max m0 m1)
      (Ideal.exp (m0 - max m0 m1) * l0 + Ideal.exp (m1 - max m0 m1) * l1)
      (fun d => Ideal.exp (m0 - max m0 m1) * acc0 d + Ideal.exp (m1 - max m0 m1) * acc1 d) := by
  obtain ⟨μ0, rfl, rfl, hacc0⟩ := h0
  obtain ⟨μ1, rfl, rfl, hacc1⟩ := h1
  have hmax : max (μ0 : EReal) (μ1 : EReal) = ((max μ0 μ1 : ℝ) : EReal) := (EReal.coe_strictMono.monotone.map_max (a := μ0) (b := μ1)).symm
  have hc : ∀ (μ : ℝ) j, Real.exp (μ - max μ0 μ1) * Real.exp (β j - μ) = Real.exp (β j - max μ0 μ1) := fun μ j => by
    rw [← Real.exp_add]; congr 1; ring
  refine ⟨max μ0 μ1, hmax, ?_, fun d => ?_⟩
  · rw [hmax]
    simp only [exp_sub_coe]
    rw [← EReal.coe_mul, ← EReal.coe_mul, ← EReal.coe_add, EReal.coe_eq_coe_iff, Finset.mul_sum, Finset.mul_sum]
    simp only [hc]
    exact Finset.sum_Ico_consecutive _ hab hbc
  · dsimp only
    rw [hmax, hacc0 d, hacc1 d]
    simp only [exp_sub_coe]
    rw [← EReal.coe_mul, ← EReal.coe_mul, ← EReal.coe_add, EReal.coe_eq_coe_iff, Finset.mul_sum, Finset.mul_sum]
    simp only [← mul_assoc, hc]
    exact Finset.sum_Ico_consecutive _ hab hbc

/-- (3) The quotient of a state over all `N` rows is the softmax-weighted sum, taken with any real shift `M`. -/
theorem Part.quot {β : ℕ → ℝ} {H : ℕ → δ → ℝ} {N : ℕ} {m l : EReal} {acc : δ → EReal}
    (h : Part β H 0 N m l acc) (hN : 0 < N) {M : EReal} (hM : IsFin M) (d : δ) :
    Ideal.div (acc d) l
      = ∑ k : Fin N, Ideal.div (Ideal.exp ((β k : EReal) - M)) (0 + ∑ k' : Fin N, Ideal.exp ((β k' : EReal) - M))
          * (H k d : EReal) := by
  obtain ⟨μ, rfl, rfl, hacc⟩ := h
  obtain ⟨Mr, rfl⟩ := hM
  rw [hacc d]
  simp only [exp_sub_coe, zero_add]
  rw [← coe_sum]
  have hSpos : 0 < ∑ k : Fin N, Real.exp (β k - Mr) :=
    Finset.sum_pos (fun _ _ => Real.exp_pos _) ⟨⟨0, hN⟩, Finset.mem_univ _⟩
  have hLpos : 0 < ∑ j ∈ Ico 0 N, Real.exp (β j - μ) :=
    Finset.sum_pos (fun _ _ => Real.exp_pos _) ⟨0, Finset.mem_Ico.mpr ⟨le_refl 0, hN⟩⟩
  rw [Ideal.div_coe hLpos.ne']
  simp only [Ideal.div_coe hSpos.ne', ← EReal.coe_mul]
  rw [← coe_sum, EReal.coe_eq_coe_iff]
  have hc : ∀ j, Real.exp (β j - μ) = Real.exp (Mr - μ) * Real.exp (β j - Mr) := fun j => by
    rw [← Real.exp_add]; congr 1; ring
  have hE : Real.exp (Mr - μ) ≠ 0 := (Real.exp_pos _).ne'
  have hnum : ∑ j ∈ Ico 0 N, Real.exp (β j - μ) * H j d
      = Real.exp (Mr - μ) * ∑ k : Fin N, Real.exp (β k - Mr) * H k d := by
    rw [Nat.Ico_zero_eq_range, Finset.sum_range (fun j => Real.exp (β j - μ) * H j d), Finset.mul_sum]
    exact Finset.sum_congr rfl fun k _ => by rw [hc]; ring
  have hden : ∑ j ∈ Ico 0 N, Real.exp (β j - μ) = Real.exp (Mr - μ) * ∑ k : Fin N, Real.exp (β k - Mr) := by
    rw [Nat.Ico_zero_eq_range, Finset.sum_range (fun j => Real.exp (β j - μ)), Finset.mul_sum]
    exact Finset.sum_congr rfl fun k _ => hc k
  rw [hnum, hden]
  have hS : (∑ k : Fin N, Real.exp (β k - Mr)) ≠ 0 := hSpos.ne'
  have key : ∀ A : ℝ, Real.exp (Mr - μ) * A * (1 / (Real.exp (Mr - μ) * ∑ k : Fin N, Real.exp (β k - Mr)))
      = A * (1 / ∑ k : Fin N, Real.exp (β k - Mr)) := fun A => by field_simp
  rw [key, Finset.sum_mul]
  exact Finset.sum_congr rfl fun k _ => by ring

end Cert.Attn

end
-- ==== Proof.Payloads.lean ====
/-
  The body's arithmetic at one grid point, read entry by entry over the extended reals.

  With h the point's 1024×1024 block of rows, Wt the transposed weight, bias and ut the two 1×1024 rows, and (m, l, acc)
  the carried state, the body computes, for each row r of the block,
      score r   = ∑ a, tanh ((∑ k, h r k · Wt k a) + bias a) · ut a,
  then the new shift  m' = max m (max over r of score r),  the rescaling  exp (m - m'),  the weights  p r = exp (score r - m'),
  and leaves            l' = exp (m - m') · l + ∑ r, p r,        acc' d = exp (m - m') · acc d + ∑ r, p r · h r d.
  Each of these is read here at an index; the layout steps between them (a vector kept as a column, a row or a
  column spread over a block, a 1-vector recast as a 1×1 block) only move indices.
-/
import proofs.«144839_j35124242547322_2_alg».proof.Proof.Gen.KernelIdeal.Skeleton
import proofs.«144839_j35124242547322_2_alg».proof.Proof.LibColumn
import proofs.«144839_j35124242547322_2_alg».proof.Proof.LibOnlineSoftmax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.Column Cert.Attn

/-! ## The reductions, each at one index -/

/-- A row sum of a 1024×1024 block kept as a column: at (r, ·) the sum of row r. -/
theorem rowsum_col (v : FVec Ideal S1024x1024 .f32) (h : S1024x1024.Reduces [1] S1024) (hφ : FKind.Formats .f32)
    (hacc : (0x00000000#32 : BitVec 32) = FKind.add.neutral .f32 hφ) (hc : S1024.ShapeCasts S1024x1)
    (r : Fin 1024) (u : Fin 1) :
    shapeCast S1024x1 (multiReduction .add [1] S1024 v 0x00000000#32 h hφ hacc) hc (ix2 r u)
      = ∑ a : Fin 1024, v (ix2 r a) :=
  (shapeCast_a_a1_apply _ hc r u).trans
    ((Ideal.multiReduction_add_single v _ h hφ hacc (ix1 r)).trans
      (Finset.sum_congr rfl fun a _ => congrArg v (funext fun d => Fin.ext (by
        match d with
        | ⟨0, _⟩ => rfl
        | ⟨1, _⟩ => rfl))))

/-- A column sum of a 1024×1024 block kept as a row: at (·, d) the sum of column d. -/
theorem colsum_row (v : FVec Ideal S1024x1024 .f32) (h : S1024x1024.Reduces [0] S1024) (hφ : FKind.Formats .f32)
    (hacc : (0x00000000#32 : BitVec 32) = FKind.add.neutral .f32 hφ) (hc : S1024.ShapeCasts S1x1024)
    (u : Fin 1) (d : Fin 1024) :
    shapeCast S1x1024 (multiReduction .add [0] S1024 v 0x00000000#32 h hφ hacc) hc (ix2 u d)
      = ∑ r : Fin 1024, v (ix2 r d) :=
  (shapeCast_a_1a_apply _ hc u d).trans
    ((Ideal.multiReduction_add_single v _ h hφ hacc (ix1 d)).trans
      (Finset.sum_congr rfl fun r _ => congrArg v (funext fun e => Fin.ext (by
        match e with
        | ⟨0, _⟩ => rfl
        | ⟨1, _⟩ => rfl))))

/-- The sum of a 1024×1 column kept as a 1×1 block. -/
theorem sum_col (v : FVec Ideal S1024x1 .f32) (h : S1024x1.Reduces [0] S1) (hφ : FKind.Formats .f32)
    (hacc : (0x00000000#32 : BitVec 32) = FKind.add.neutral .f32 hφ) (hc : S1.ShapeCasts S1x1) (u : Fin 1) :
    shapeCast S1x1 (multiReduction .add [0] S1 v 0x00000000#32 h hφ hacc) hc (ix2 u (0 : Fin 1))
      = ∑ r : Fin 1024, v (ix2 r (0 : Fin 1)) :=
  (shapeCast_a_1a_apply _ hc u (0 : Fin 1)).trans
    ((Ideal.multiReduction_add_single v _ h hφ hacc (ix1 (0 : Fin 1))).trans
      (Finset.sum_congr rfl fun r _ => congrArg v (funext fun e => Fin.ext (by
        match e with
        | ⟨0, _⟩ => rfl
        | ⟨1, _⟩ => rfl))))

/-- The maximum of a 1024×1 column from -∞, kept as a 1×1 block: the fold of `max` over its entries. -/
theorem max_col (v : FVec Ideal S1024x1 .f32) (h : S1024x1.Reduces [0] S1) (hφ : FKind.Formats .f32)
    (hacc : (0xFF800000#32 : BitVec 32) = FKind.maximumf.neutral .f32 hφ) (hc : S1.ShapeCasts S1x1) (u w : Fin 1) :
    shapeCast S1x1 (multiReduction .maximumf [0] S1 v 0xFF800000#32 h hφ hacc) hc (ix2 u w)
      = (Finset.univ : Finset (Fin 1024)).fold max (Ideal.ofBits .f32 0xFF800000#32) (v ∘ h.lift (ix1 w)) :=
  (shapeCast_a_1a_apply _ hc u w).trans (Ideal.multiReduction_maximumf_single v _ h hφ hacc (ix1 w))

/-- That maximum is below +∞ when every entry is real. -/
theorem max_col_lt_top (v : FVec Ideal S1024x1 .f32) (h : S1024x1.Reduces [0] S1) (hφ : FKind.Formats .f32)
    (hacc : (0xFF800000#32 : BitVec 32) = FKind.maximumf.neutral .f32 hφ) (hc : S1.ShapeCasts S1x1) (u w : Fin 1)
    (hv : ∀ i, IsFin (v i)) :
    shapeCast S1x1 (multiReduction .maximumf [0] S1 v 0xFF800000#32 h hφ hacc) hc (ix2 u w) < ⊤ := by
  rw [max_col]
  refine fold_max_lt_top _ _ _ ?_ fun r _ => (hv _).lt_top
  have : Ideal.ofBits .f32 0xFF800000#32 = ⊥ := by simp [Ideal.ofBits, Ideal.ieee]
  rw [this]; exact bot_lt_top

/-- The block product's dimension record. -/
abbrev DOT := dot_S1024x1024_S1024x1024_S1024x1024_1_0_0_1_n_n

theorem lhs0 (i : S1024x1024.Idx) (q : DOT.contr.Idx) : (DOT.lhsIdx i q 0).val = (i 0).val := by
  unfold DotDims.lhsIdx
  rw [dif_neg (show ¬(0 : Fin S1024x1024.rank) ∈ DOT.lhsBatch by decide),
    dif_pos (show (0 : Fin S1024x1024.rank) ∈ DOT.lhsNonContracting by decide)]
  rfl
theorem lhs1 (i : S1024x1024.Idx) (q : DOT.contr.Idx) : (DOT.lhsIdx i q 1).val = (q ⟨0, by decide⟩).val :=
  DOT.lhsIdx_val_of_single rfl i q
theorem rhs0 (i : S1024x1024.Idx) (q : DOT.contr.Idx) : (DOT.rhsIdx i q 0).val = (q ⟨0, by decide⟩).val :=
  DOT.rhsIdx_val_of_single rfl i q
theorem rhs1 (i : S1024x1024.Idx) (q : DOT.contr.Idx) : (DOT.rhsIdx i q 1).val = (i 1).val := by
  unfold DotDims.rhsIdx
  rw [dif_neg (show ¬(1 : Fin S1024x1024.rank) ∈ DOT.rhsBatch by decide),
    dif_pos (show (1 : Fin S1024x1024.rank) ∈ DOT.rhsNonContracting by decide)]
  rfl

/-- The block's matrix product into zero, at an entry: the sum over k of the left operand's row times the right operand's
    column. -/
theorem mm_apply (l r : FVec Ideal S1024x1024 .bf16) (p a : Fin 1024) :
    matmul DOT none l r (constant S1024x1024 .f32 0x00000000#32) (ix2 p a)
      = ∑ k : Fin 1024, l (ix2 p k) * r (ix2 k a) := by
  simp only [matmul]
  rw [Ideal.matmul_constant_zero_apply, ← Equiv.sum_comp (ValueIdx.contrEquiv1 DOT 1024 rfl rfl).symm]
  refine Finset.sum_congr rfl fun k _ => ?_
  have hk := ValueIdx.contrEquiv1_symm_val DOT 1024 rfl rfl k
  have el : DOT.lhsIdx (ix2 p a) ((ValueIdx.contrEquiv1 DOT 1024 rfl rfl).symm k) = ix2 p k := funext fun b => Fin.ext (by
    match b with
    | ⟨0, _⟩ => exact lhs0 _ _
    | ⟨1, _⟩ => exact (lhs1 _ _).trans hk)
  have er : DOT.rhsIdx (ix2 p a) ((ValueIdx.contrEquiv1 DOT 1024 rfl rfl).symm k) = ix2 k a := funext fun b => Fin.ext (by
    match b with
    | ⟨0, _⟩ => exact (rhs0 _ _).trans hk
    | ⟨1, _⟩ => exact rhs1 _ _)
  rw [el, er]

/-! ## The payloads -/

/-- The score of row r of the block. -/
def score (x0 x1 : FVec Ideal S1024x1024 .bf16) (x2 x3 : FVec Ideal S1x1024 .f32) (r : Fin 1024) : EReal :=
  ∑ a : Fin 1024, Ideal.tanh ((∑ k : Fin 1024, x0 (ix2 r k) * x1 (ix2 k a)) + x2 (ix2 (0 : Fin 1) a)) * x3 (ix2 (0 : Fin 1) a)

theorem pay10_apply (x0 x1 : FVec Ideal S1024x1024 .bf16) (x2 x3 : FVec Ideal S1x1024 .f32) (r : Fin 1024) (u : Fin 1) :
    k0_pay10 (F := Ideal) x0 x1 x2 x3 (ix2 r u) = score x0 x1 x2 x3 r := by
  unfold k0_pay10 k0_pay9
  dsimp only
  refine (rowsum_col _ _ _ _ _ r u).trans (Finset.sum_congr rfl fun a _ => ?_)
  refine congrArg₂ (· * ·) (congrArg Ideal.tanh (congrArg₂ (· + ·) ?_ ?_)) ?_
  · rw [shapeCast_self, shapeCast_self]
    exact mm_apply x0 x1 r a
  · exact (broadcastTo_1b_ab_apply _ _ r a).trans (congrFun (shapeCast_self x2 _) _)
  · exact (broadcastTo_1b_ab_apply _ _ r a).trans (congrFun (shapeCast_self x3 _) _)

/-! ## The reset values -/

/-- The reset shift is a real number: the word is a finite float (exponent field below all ones). -/
theorem neg_isFin : IsFin (Ideal.ofBits .f32 0xFF333332#32) := by
  unfold Ideal.ofBits Ideal.ieee
  dsimp only
  rw [if_neg (by decide), if_neg (by decide)]
  exact ⟨_, rfl⟩

theorem pay6_apply (j : S1x1.Idx) : k0_pay6 (F := Ideal) j = Ideal.ofBits .f32 0xFF333332#32 := by
  unfold k0_pay6
  exact congrFun (shapeCast_self _ _) j

theorem pay7_apply (j : S1x1.Idx) : k0_pay7 (F := Ideal) j = 0 := by
  unfold k0_pay7
  exact (congrFun (shapeCast_self _ _) j).trans Ideal.ofBits_zero_f32

theorem pay8_apply (j : S1x1024.Idx) : k0_pay8 (F := Ideal) j = 0 := by
  unfold k0_pay8
  exact (congrFun (shapeCast_self _ _) j).trans Ideal.ofBits_zero_f32

/-! ## The update -/

theorem isFin_max_of_lt_top {a b : EReal} (ha : IsFin a) (hb : b < ⊤) : IsFin (max a b) :=
  isFin_of_lt (lt_of_lt_of_le ha.bot_lt (le_max_left a b)) (max_lt ha.lt_top hb)

/-- The new shift — the larger of the carried shift and the block's largest score — is real when the carried shift and
    the scores are. -/
theorem pay11_isFin (x0 x1 : FVec Ideal S1024x1024 .bf16) (x2 x3 : FVec Ideal S1x1024 .f32) (v21 : FVec Ideal S1x1 .f32)
    (hv : IsFin (v21 (ix2 (0 : Fin 1) (0 : Fin 1)))) (hs : ∀ r, IsFin (score x0 x1 x2 x3 r)) :
    IsFin (k0_pay11 (F := Ideal) x0 x1 x2 x3 v21 (ix2 (0 : Fin 1) (0 : Fin 1))) := by
  unfold k0_pay11
  dsimp only
  refine isFin_max_of_lt_top hv (max_col_lt_top _ _ _ _ _ _ _ fun i => ?_)
  obtain ⟨r, u, rfl⟩ : ∃ (r : Fin 1024) (u : Fin 1), i = ix2 r u := ⟨i 0, i 1, eq_ix2 i⟩
  rw [pay10_apply]
  exact hs r

/-- The rescaling of the carried sums: exp (old shift - new shift). -/
theorem pay12_apply (x0 x1 : FVec Ideal S1024x1024 .bf16) (x2 x3 : FVec Ideal S1x1024 .f32) (v21 : FVec Ideal S1x1 .f32)
    (j : S1x1.Idx) :
    k0_pay12 (F := Ideal) x0 x1 x2 x3 v21 j = Ideal.exp (v21 j - k0_pay11 (F := Ideal) x0 x1 x2 x3 v21 j) := rfl

/-- Row r's weight: exp (score r - new shift). -/
theorem pay13_apply (x0 x1 : FVec Ideal S1024x1024 .bf16) (x2 x3 : FVec Ideal S1x1024 .f32) (v21 : FVec Ideal S1x1 .f32)
    (r : Fin 1024) :
    k0_pay13 (F := Ideal) x0 x1 x2 x3 v21 (ix2 r (0 : Fin 1))
      = Ideal.exp (score x0 x1 x2 x3 r - k0_pay11 (F := Ideal) x0 x1 x2 x3 v21 (ix2 (0 : Fin 1) (0 : Fin 1))) := by
  unfold k0_pay13
  exact congrArg Ideal.exp (congrArg₂ (· - ·) (pay10_apply x0 x1 x2 x3 r 0) (broadcastTo_1b_ab_apply _ _ r (0 : Fin 1)))

/-- The new exponential sum: the rescaled old sum plus the block's weights. -/
theorem pay14_apply (x0 x1 : FVec Ideal S1024x1024 .bf16) (x2 x3 : FVec Ideal S1x1024 .f32) (v21 v28 : FVec Ideal S1x1 .f32) :
    k0_pay14 (F := Ideal) x0 x1 x2 x3 v21 v28 (ix2 (0 : Fin 1) (0 : Fin 1))
      = k0_pay12 (F := Ideal) x0 x1 x2 x3 v21 (ix2 (0 : Fin 1) (0 : Fin 1)) * v28 (ix2 (0 : Fin 1) (0 : Fin 1))
        + ∑ r : Fin 1024, k0_pay13 (F := Ideal) x0 x1 x2 x3 v21 (ix2 r (0 : Fin 1)) := by
  unfold k0_pay14
  dsimp only
  refine (congrFun (shapeCast_self _ _) _).trans ?_
  exact congrArg (k0_pay12 (F := Ideal) x0 x1 x2 x3 v21 (ix2 (0 : Fin 1) (0 : Fin 1)) * v28 (ix2 (0 : Fin 1) (0 : Fin 1)) + ·)
    (sum_col _ _ _ _ _ (0 : Fin 1))

/-- The new weighted row sum at column d: the rescaled old entry plus the block's weighted rows. -/
theorem pay1_apply (v4 : FVec Ideal S1024x1024 .bf16) (v24 : FVec Ideal S1x1 .f32) (v27 : FVec Ideal S1024x1 .f32)
    (v41 : FVec Ideal S1x1024 .f32) (d : Fin 1024) :
    k0_pay1 (F := Ideal) v4 v24 v27 v41 (ix2 (0 : Fin 1) d)
      = v24 (ix2 (0 : Fin 1) (0 : Fin 1)) * v41 (ix2 (0 : Fin 1) d) + ∑ r : Fin 1024, v27 (ix2 r (0 : Fin 1)) * v4 (ix2 r d) := by
  unfold k0_pay1
  dsimp only
  refine (congrFun (shapeCast_self _ _) _).trans ?_
  refine congrArg₂ (· + ·) (congrArg (· * v41 (ix2 (0 : Fin 1) d)) (broadcastTo_a1_ab_apply _ _ (0 : Fin 1) d)) ?_
  refine (colsum_row _ _ _ _ _ (0 : Fin 1) d).trans (Finset.sum_congr rfl fun r _ => ?_)
  exact congrArg (· * v4 (ix2 r d)) (broadcastTo_a1_ab_apply _ _ r d)

theorem pay2_eq (v : FVec Ideal S1x1 .f32) : k0_pay2 (F := Ideal) v = v := by
  unfold k0_pay2
  exact shapeCast_self _ _

theorem pay9_eq (v : FVec Ideal S1024x1024 .bf16) : k0_pay9 (F := Ideal) v = v := by
  unfold k0_pay9
  exact shapeCast_self _ _

/-- The 1×1 blocks copied to the first two outputs, and the 1×1024 row copied to the third. -/
theorem pay3_apply (v : FVec Ideal S1x1 .f32) (u a b : Fin 1) : k0_pay3 (F := Ideal) v (ix3 u a b) = v (ix2 a b) := by
  unfold k0_pay3
  exact shapeCast_ab_1ab_apply _ _ u a b

theorem pay4_apply (v : FVec Ideal S1x1 .f32) (u a b : Fin 1) : k0_pay4 (F := Ideal) v (ix3 u a b) = v (ix2 a b) := by
  unfold k0_pay4
  exact shapeCast_ab_1ab_apply _ _ u a b

theorem pay5_apply (v : FVec Ideal S1x1024 .f32) (u a : Fin 1) (d : Fin 1024) :
    k0_pay5 (F := Ideal) v (ix3 u a d) = v (ix2 a d) := by
  unfold k0_pay5
  exact shapeCast_ab_1ab_apply _ _ u a d

end Cert.KernelIdeal.Pay

end
-- ==== Proof.Step.lean ====
/-
  One grid point's update of the carried state, as a step of the streaming softmax.

  If the carried (m, l, acc) is the partial state over the rows lo ≤ j < mid, the block holds the rows mid ≤ j < mid + 1024
  (its scores the reals β j, its entries the reals H j d), then what the update leaves is the partial state over
  lo ≤ j < mid + 1024: the new shift is real (the larger of a real and a maximum of reals), and the update's two sums are
  exactly the rescale-and-add of the streaming form.  The reset values — a finite negative shift, zero sums — are the
  partial state over no rows.
-/
import proofs.«144839_j35124242547322_2_alg».proof.Proof.Payloads

noncomputable section

namespace Cert.KernelIdeal.Step

open Cert.KernelIdeal Cert.KernelIdeal.Gen Cert.KernelIdeal.Pay Idealize.ShloMosaic Idealize.ShloMosaic.ValueIdx Cert.Attn

/-- The reset values are the partial state over no rows. -/
theorem init_part (β : ℕ → ℝ) (H : ℕ → Fin 1024 → ℝ) (lo : ℕ) :
    Part β H lo lo (k0_pay6 (F := Ideal) (ix2 (0 : Fin 1) (0 : Fin 1))) (k0_pay7 (F := Ideal) (ix2 (0 : Fin 1) (0 : Fin 1)))
      (fun d : Fin 1024 => k0_pay8 (F := Ideal) (ix2 (0 : Fin 1) d)) := by
  rw [pay6_apply, pay7_apply]
  simp only [pay8_apply]
  exact Part.empty β H lo neg_isFin

/-- The update absorbs the block's 1024 rows. -/
theorem step_part {β : ℕ → ℝ} {H : ℕ → Fin 1024 → ℝ} {lo mid : ℕ}
    (x0 x1 : FVec Ideal S1024x1024 .bf16) (x2 x3 : FVec Ideal S1x1024 .f32)
    (s0 s1 : FVec Ideal S1x1 .f32) (s2 : FVec Ideal S1x1024 .f32)
    (hP : Part β H lo mid (s0 (ix2 (0 : Fin 1) (0 : Fin 1))) (s1 (ix2 (0 : Fin 1) (0 : Fin 1)))
      (fun d : Fin 1024 => s2 (ix2 (0 : Fin 1) d)))
    (hlm : lo ≤ mid)
    (hsc : ∀ r : Fin 1024, score x0 x1 x2 x3 r = ((β (mid + r) : ℝ) : EReal))
    (hH : ∀ r d : Fin 1024, x0 (ix2 r d) = ((H (mid + r) d : ℝ) : EReal)) :
    Part β H lo (mid + 1024)
      (k0_pay2 (F := Ideal) (k0_pay11 (F := Ideal) x0 x1 x2 x3 s0) (ix2 (0 : Fin 1) (0 : Fin 1)))
      (k0_pay14 (F := Ideal) x0 x1 x2 x3 s0 s1 (ix2 (0 : Fin 1) (0 : Fin 1)))
      (fun d : Fin 1024 => k0_pay1 (F := Ideal) (k0_pay9 (F := Ideal) x0) (k0_pay12 (F := Ideal) x0 x1 x2 x3 s0)
        (k0_pay13 (F := Ideal) x0 x1 x2 x3 s0) s2 (ix2 (0 : Fin 1) d)) := by
  have hfin : IsFin (k0_pay11 (F := Ideal) x0 x1 x2 x3 s0 (ix2 (0 : Fin 1) (0 : Fin 1))) :=
    pay11_isFin x0 x1 x2 x3 s0 hP.isFin_m fun r => by rw [hsc r]; exact isFin_coe _
  have hstep := hP.step hlm 1024 hfin
  have e1 : k0_pay14 (F := Ideal) x0 x1 x2 x3 s0 s1 (ix2 (0 : Fin 1) (0 : Fin 1))
      = Ideal.exp (s0 (ix2 (0 : Fin 1) (0 : Fin 1)) - k0_pay11 (F := Ideal) x0 x1 x2 x3 s0 (ix2 (0 : Fin 1) (0 : Fin 1)))
          * s1 (ix2 (0 : Fin 1) (0 : Fin 1))
        + ∑ r : Fin 1024, Ideal.exp (((β (mid + r) : ℝ) : EReal)
            - k0_pay11 (F := Ideal) x0 x1 x2 x3 s0 (ix2 (0 : Fin 1) (0 : Fin 1))) := by
    rw [pay14_apply, pay12_apply]
    exact congrArg (_ + ·) (Finset.sum_congr rfl fun r _ => by rw [pay13_apply, hsc r])
  have e2 : (fun d : Fin 1024 => k0_pay1 (F := Ideal) (k0_pay9 (F := Ideal) x0) (k0_pay12 (F := Ideal) x0 x1 x2 x3 s0)
        (k0_pay13 (F := Ideal) x0 x1 x2 x3 s0) s2 (ix2 (0 : Fin 1) d))
      = fun d : Fin 1024 =>
        Ideal.exp (s0 (ix2 (0 : Fin 1) (0 : Fin 1)) - k0_pay11 (F := Ideal) x0 x1 x2 x3 s0 (ix2 (0 : Fin 1) (0 : Fin 1)))
          * s2 (ix2 (0 : Fin 1) d)
        + ∑ r : Fin 1024, Ideal.exp (((β (mid + r) : ℝ) : EReal)
            - k0_pay11 (F := Ideal) x0 x1 x2 x3 s0 (ix2 (0 : Fin 1) (0 : Fin 1))) * ((H (mid + r) d : ℝ) : EReal) := by
    funext d
    rw [pay1_apply, pay12_apply, pay9_eq]
    exact congrArg (_ + ·) (Finset.sum_congr rfl fun r _ => by rw [pay13_apply, hsc r, hH r d])
  rw [pay2_eq, e1, e2]
  exact hstep

end Cert.KernelIdeal.Step

end
-- ==== Proof.Carried.lean ====
/-
  The carried state after every grid point is a partial softmax state.

  The sixteen grid points run over the sixteen blocks of 1024 rows in order; the first eight form one half, the last eight
  the other.  At the first point of a half the body starts from the reset values, elsewhere from what the point before
  left.  So after point n the carried (m, l, acc) is the partial state over the rows of the half seen so far,
  8192 · (n / 8) ≤ j < 1024 · (n + 1) — by induction on n, each step one application of the update lemma.  At the last
  point of a half the three output blocks are recasts of that state.
-/
import proofs.«144839_j35124242547322_2_alg».proof.Proof.Pieces
import proofs.«144839_j35124242547322_2_alg».proof.Proof.Step

set_option maxRecDepth 16384

noncomputable section

namespace Cert.KernelIdeal.Carried

open Cert.KernelIdeal Cert.KernelIdeal.Gen Cert.KernelIdeal.Pay Cert.KernelIdeal.Pieces Cert.KernelIdeal.Step
open Idealize.ShloMosaic Idealize.ShloMosaic.TcCoe Idealize.ShloMosaic.ValueIdx Idealize.SL.Sem Cert.Attn

variable (m : (ℓ : Loc nD τ sig) → Buf (Elt Ideal) ℓ) (c : Dev nD)

/-! ## What each point leaves, as the update of what it found -/

theorem scrA0 (t : Fin cfg0.N) (h0 : t.val % 8 = 0) (h1 : ¬t.val % 8 = 7) :
    (outsAt0 m c t.val t.isLt).2.2.2.1 = k0_pay2 (k0_pay11 (iblk m c 0 t) (iblk m c 1 t) (iblk m c 2 t) (iblk m c 3 t) (k0_pay6 (F := Ideal))) := by
  have e := outsAt0_A m c t h0 h1
  have e2 := congrArg (fun p : (Vec Ideal S1x1x1 .f32 × Vec Ideal S1x1x1 .f32 × Vec Ideal S1x1x1024 .f32 × Vec Ideal S1x1 .f32 × Vec Ideal S1x1 .f32 × Vec Ideal S1x1024 .f32) => p.2.2.2.1) e
  dsimp only at e2
  exact e2.trans (sA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t))

theorem scrA1 (t : Fin cfg0.N) (h0 : t.val % 8 = 0) (h1 : ¬t.val % 8 = 7) :
    (outsAt0 m c t.val t.isLt).2.2.2.2.1 = k0_pay14 (iblk m c 0 t) (iblk m c 1 t) (iblk m c 2 t) (iblk m c 3 t) (k0_pay6 (F := Ideal)) (k0_pay7 (F := Ideal)) := by
  have e := outsAt0_A m c t h0 h1
  have e2 := congrArg (fun p : (Vec Ideal S1x1x1 .f32 × Vec Ideal S1x1x1 .f32 × Vec Ideal S1x1x1024 .f32 × Vec Ideal S1x1 .f32 × Vec Ideal S1x1 .f32 × Vec Ideal S1x1024 .f32) => p.2.2.2.2.1) e
  dsimp only at e2
  exact e2.trans (sA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t))

theorem scrA2 (t : Fin cfg0.N) (h0 : t.val % 8 = 0) (h1 : ¬t.val % 8 = 7) :
    (outsAt0 m c t.val t.isLt).2.2.2.2.2 = k0_pay1 (k0_pay9 (iblk m c 0 t)) (k0_pay12 (iblk m c 0 t) (iblk m c 1 t) (iblk m c 2 t) (iblk m c 3 t) (k0_pay6 (F := Ideal))) (k0_pay13 (iblk m c 0 t) (iblk m c 1 t) (iblk m c 2 t) (iblk m c 3 t) (k0_pay6 (F := Ideal))) (k0_pay8 (F := Ideal)) := by
  have e := outsAt0_A m c t h0 h1
  have e2 := congrArg (fun p : (Vec Ideal S1x1x1 .f32 × Vec Ideal S1x1x1 .f32 × Vec Ideal S1x1x1024 .f32 × Vec Ideal S1x1 .f32 × Vec Ideal S1x1 .f32 × Vec Ideal S1x1024 .f32) => p.2.2.2.2.2) e
  dsimp only at e2
  exact e2.trans (sA2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t))

theorem scrB0 (t : Fin cfg0.N) (h0 : ¬t.val % 8 = 0) (h1 : ¬t.val % 8 = 7) :
    (outsAt0 m c t.val t.isLt).2.2.2.1 = k0_pay2 (k0_pay11 (iblk m c 0 t) (iblk m c 1 t) (iblk m c 2 t) (iblk m c 3 t) (outsAt0 m c (t.val - 1) (Nat.lt_of_le_of_lt (Nat.sub_le _ _) t.isLt)).2.2.2.1) := by
  have e := outsAt0_B m c t h0 h1
  have e2 := congrArg (fun p : (Vec Ideal S1x1x1 .f32 × Vec Ideal S1x1x1 .f32 × Vec Ideal S1x1x1024 .f32 × Vec Ideal S1x1 .f32 × Vec Ideal S1x1 .f32 × Vec Ideal S1x1024 .f32) => p.2.2.2.1) e
  dsimp only at e2
  exact e2.trans (sB0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)

theorem scrB1 (t : Fin cfg0.N) (h0 : ¬t.val % 8 = 0) (h1 : ¬t.val % 8 = 7) :
    (outsAt0 m c t.val t.isLt).2.2.2.2.1 = k0_pay14 (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 := by
  have e := outsAt0_B m c t h0 h1
  have e2 := congrArg (fun p : (Vec Ideal S1x1x1 .f32 × Vec Ideal S1x1x1 .f32 × Vec Ideal S1x1x1024 .f32 × Vec Ideal S1x1 .f32 × Vec Ideal S1x1 .f32 × Vec Ideal S1x1024 .f32) => p.2.2.2.2.1) e
  dsimp only at e2
  exact e2.trans (sB1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)

theorem scrB2 (t : Fin cfg0.N) (h0 : ¬t.val % 8 = 0) (h1 : ¬t.val % 8 = 7) :
    (outsAt0 m c t.val t.isLt).2.2.2.2.2 = k0_pay1 (k0_pay9 (iblk m c 0 t)) (k0_pay12 (iblk m c 0 t) (iblk m c 1 t) (iblk m c 2 t) (iblk m c 3 t) (outsAt0 m c (t.val - 1) (Nat.lt_of_le_of_lt (Nat.sub_le _ _) t.isLt)).2.2.2.1) (k0_pay13 (iblk m c 0 t) (iblk m c 1 t) (iblk m c 2 t) (iblk m c 3 t) (outsAt0 m c (t.val - 1) (Nat.lt_of_le_of_lt (Nat.sub_le _ _) t.isLt)).2.2.2.1) (outsAt0 m c (t.val - 1) (Nat.lt_of_le_of_lt (Nat.sub_le _ _) t.isLt)).2.2.2.2.2 := by
  have e := outsAt0_B m c t h0 h1
  have e2 := congrArg (fun p : (Vec Ideal S1x1x1 .f32 × Vec Ideal S1x1x1 .f32 × Vec Ideal S1x1x1024 .f32 × Vec Ideal S1x1 .f32 × Vec Ideal S1x1 .f32 × Vec Ideal S1x1024 .f32) => p.2.2.2.2.2) e
  dsimp only at e2
  exact e2.trans (sB2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)

theorem scrC0 (t : Fin cfg0.N) (h0 : ¬t.val % 8 = 0) (h1 : t.val % 8 = 7) :
    (outsAt0 m c t.val t.isLt).2.2.2.1 = k0_pay2 (k0_pay11 (iblk m c 0 t) (iblk m c 1 t) (iblk m c 2 t) (iblk m c 3 t) (outsAt0 m c (t.val - 1) (Nat.lt_of_le_of_lt (Nat.sub_le _ _) t.isLt)).2.2.2.1) := by
  have e := outsAt0_C m c t h0 h1
  have e2 := congrArg (fun p : (Vec Ideal S1x1x1 .f32 × Vec Ideal S1x1x1 .f32 × Vec Ideal S1x1x1024 .f32 × Vec Ideal S1x1 .f32 × Vec Ideal S1x1 .f32 × Vec Ideal S1x1024 .f32) => p.2.2.2.1) e
  dsimp only at e2
  exact e2.trans (sC0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)

theorem scrC1 (t : Fin cfg0.N) (h0 : ¬t.val % 8 = 0) (h1 : t.val % 8 = 7) :
    (outsAt0 m c t.val t.isLt).2.2.2.2.1 = k0_pay14 (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 := by
  have e := outsAt0_C m c t h0 h1
  have e2 := congrArg (fun p : (Vec Ideal S1x1x1 .f32 × Vec Ideal S1x1x1 .f32 × Vec Ideal S1x1x1024 .f32 × Vec Ideal S1x1 .f32 × Vec Ideal S1x1 .f32 × Vec Ideal S1x1024 .f32) => p.2.2.2.2.1) e
  dsimp only at e2
  exact e2.trans (sC1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)

theorem scrC2 (t : Fin cfg0.N) (h0 : ¬t.val % 8 = 0) (h1 : t.val % 8 = 7) :
    (outsAt0 m c t.val t.isLt).2.2.2.2.2 = k0_pay1 (k0_pay9 (iblk m c 0 t)) (k0_pay12 (iblk m c 0 t) (iblk m c 1 t) (iblk m c 2 t) (iblk m c 3 t) (outsAt0 m c (t.val - 1) (Nat.lt_of_le_of_lt (Nat.sub_le _ _) t.isLt)).2.2.2.1) (k0_pay13 (iblk m c 0 t) (iblk m c 1 t) (iblk m c 2 t) (iblk m c 3 t) (outsAt0 m c (t.val - 1) (Nat.lt_of_le_of_lt (Nat.sub_le _ _) t.isLt)).2.2.2.1) (outsAt0 m c (t.val - 1) (Nat.lt_of_le_of_lt (Nat.sub_le _ _) t.isLt)).2.2.2.2.2 := by
  have e := outsAt0_C m c t h0 h1
  have e2 := congrArg (fun p : (Vec Ideal S1x1x1 .f32 × Vec Ideal S1x1x1 .f32 × Vec Ideal S1x1x1024 .f32 × Vec Ideal S1x1 .f32 × Vec Ideal S1x1 .f32 × Vec Ideal S1x1024 .f32) => p.2.2.2.2.2) e
  dsimp only at e2
  exact e2.trans (sC2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)

/-- At the last point of a half, output block 0 is the recast of the carried value the point leaves. -/
theorem out4_eq (t : Fin cfg0.N) (h0 : ¬t.val % 8 = 0) (h1 : t.val % 8 = 7) :
    (outsAt0 m c t.val t.isLt).1 = k0_pay3 (F := Ideal) ((outsAt0 m c t.val t.isLt).2.2.2.1) := by
  have e := outsAt0_C m c t h0 h1
  have e2 := congrArg (fun p : (Vec Ideal S1x1x1 .f32 × Vec Ideal S1x1x1 .f32 × Vec Ideal S1x1x1024 .f32 × Vec Ideal S1x1 .f32 × Vec Ideal S1x1 .f32 × Vec Ideal S1x1024 .f32) => p.1) e
  dsimp only at e2
  exact (e2.trans (oC4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)).trans
    (congrArg (k0_pay3 (F := Ideal)) (scrC0 m c t h0 h1).symm)

/-- At the last point of a half, output block 1 is the recast of the carried value the point leaves. -/
theorem out5_eq (t : Fin cfg0.N) (h0 : ¬t.val % 8 = 0) (h1 : t.val % 8 = 7) :
    (outsAt0 m c t.val t.isLt).2.1 = k0_pay4 (F := Ideal) ((outsAt0 m c t.val t.isLt).2.2.2.2.1) := by
  have e := outsAt0_C m c t h0 h1
  have e2 := congrArg (fun p : (Vec Ideal S1x1x1 .f32 × Vec Ideal S1x1x1 .f32 × Vec Ideal S1x1x1024 .f32 × Vec Ideal S1x1 .f32 × Vec Ideal S1x1 .f32 × Vec Ideal S1x1024 .f32) => p.2.1) e
  dsimp only at e2
  exact (e2.trans (oC5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)).trans
    (congrArg (k0_pay4 (F := Ideal)) (scrC1 m c t h0 h1).symm)

/-- At the last point of a half, output block 2 is the recast of the carried value the point leaves. -/
theorem out6_eq (t : Fin cfg0.N) (h0 : ¬t.val % 8 = 0) (h1 : t.val % 8 = 7) :
    (outsAt0 m c t.val t.isLt).2.2.1 = k0_pay5 (F := Ideal) ((outsAt0 m c t.val t.isLt).2.2.2.2.2) := by
  have e := outsAt0_C m c t h0 h1
  have e2 := congrArg (fun p : (Vec Ideal S1x1x1 .f32 × Vec Ideal S1x1x1 .f32 × Vec Ideal S1x1x1024 .f32 × Vec Ideal S1x1 .f32 × Vec Ideal S1x1 .f32 × Vec Ideal S1x1024 .f32) => p.2.2.1) e
  dsimp only at e2
  exact (e2.trans (oC6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)).trans
    (congrArg (k0_pay5 (F := Ideal)) (scrC2 m c t h0 h1).symm)

/-! ## The induction over the grid points -/

/-- A partial state may be restated along equalities of its three components. -/
theorem part_congr {β : ℕ → ℝ} {H : ℕ → Fin 1024 → ℝ} {lo hi : ℕ} {a a' b b' : EReal} {f f' : Fin 1024 → EReal}
    (h : Part β H lo hi a b f) (ha : a = a') (hb : b = b') (hf : f = f') : Part β H lo hi a' b' f' := by
  subst ha; subst hb; subst hf; exact h

/-- What links the blocks to the rows: the block at point t holds the rows 1024·t ≤ j < 1024·t + 1024, row j's score the real
    β j and its entries the reals H j d. -/
structure Rows (β : ℕ → ℝ) (H : ℕ → Fin 1024 → ℝ) : Prop where
  sc : ∀ (t : Fin cfg0.N) (r : Fin 1024),
    score (iblk m c 0 t) (iblk m c 1 t) (iblk m c 2 t) (iblk m c 3 t) r = ((β (1024 * t.val + r.val) : ℝ) : EReal)
  h : ∀ (t : Fin cfg0.N) (r d : Fin 1024),
    (iblk m c 0 t : FVec Ideal S1024x1024 .bf16) (ix2 r d) = ((H (1024 * t.val + r.val) d : ℝ) : EReal)

variable {β : ℕ → ℝ} {H : ℕ → Fin 1024 → ℝ}

/-- The first point of a half leaves the partial state over its own block. -/
theorem carried_first (hR : Rows m c β H) (t : Fin cfg0.N) (h0 : t.val % 8 = 0) (h1 : ¬t.val % 8 = 7) :
    Part β H (1024 * t.val) (1024 * t.val + 1024)
      ((outsAt0 m c t.val t.isLt).2.2.2.1 (ix2 (0 : Fin 1) (0 : Fin 1)))
      ((outsAt0 m c t.val t.isLt).2.2.2.2.1 (ix2 (0 : Fin 1) (0 : Fin 1)))
      (fun d : Fin 1024 => (outsAt0 m c t.val t.isLt).2.2.2.2.2 (ix2 (0 : Fin 1) d)) :=
  part_congr (step_part (iblk m c 0 t) (iblk m c 1 t) (iblk m c 2 t) (iblk m c 3 t) (k0_pay6 (F := Ideal)) (k0_pay7 (F := Ideal)) (k0_pay8 (F := Ideal)) (init_part β H (1024 * t.val)) (le_refl _) (hR.sc t) (hR.h t))
    (congrFun (scrA0 m c t h0 h1).symm _) (congrFun (scrA1 m c t h0 h1).symm _)
    (funext fun d => congrFun (scrA2 m c t h0 h1).symm _)

/-- A later point of a half extends the partial state the point before left by its own block. -/
theorem carried_next (hR : Rows m c β H) (t : Fin cfg0.N) (h0 : ¬t.val % 8 = 0) (lo : ℕ) (hlo : lo ≤ 1024 * t.val)
    (hprev : Part β H lo (1024 * t.val)
      ((outsAt0 m c (t.val - 1) (Nat.lt_of_le_of_lt (Nat.sub_le _ _) t.isLt)).2.2.2.1 (ix2 (0 : Fin 1) (0 : Fin 1)))
      ((outsAt0 m c (t.val - 1) (Nat.lt_of_le_of_lt (Nat.sub_le _ _) t.isLt)).2.2.2.2.1 (ix2 (0 : Fin 1) (0 : Fin 1)))
      (fun d : Fin 1024 => (outsAt0 m c (t.val - 1) (Nat.lt_of_le_of_lt (Nat.sub_le _ _) t.isLt)).2.2.2.2.2 (ix2 (0 : Fin 1) d))) :
    Part β H lo (1024 * t.val + 1024)
      ((outsAt0 m c t.val t.isLt).2.2.2.1 (ix2 (0 : Fin 1) (0 : Fin 1)))
      ((outsAt0 m c t.val t.isLt).2.2.2.2.1 (ix2 (0 : Fin 1) (0 : Fin 1)))
      (fun d : Fin 1024 => (outsAt0 m c t.val t.isLt).2.2.2.2.2 (ix2 (0 : Fin 1) d)) := by
  have hs := step_part (iblk m c 0 t) (iblk m c 1 t) (iblk m c 2 t) (iblk m c 3 t) ((outsAt0 m c (t.val - 1) (Nat.lt_of_le_of_lt (Nat.sub_le _ _) t.isLt)).2.2.2.1) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2) hprev hlo (hR.sc t) (hR.h t)
  by_cases h1 : t.val % 8 = 7
  · exact part_congr hs (congrFun (scrC0 m c t h0 h1).symm _) (congrFun (scrC1 m c t h0 h1).symm _)
      (funext fun d => congrFun (scrC2 m c t h0 h1).symm _)
  · exact part_congr hs (congrFun (scrB0 m c t h0 h1).symm _) (congrFun (scrB1 m c t h0 h1).symm _)
      (funext fun d => congrFun (scrB2 m c t h0 h1).symm _)
/-- After point n the carried state is the partial state over the rows of n's half seen so far. -/
theorem carried (hR : Rows m c β H) (n : ℕ) : ∀ hn : n < cfg0.N,
    Part β H (8192 * (n / 8)) (1024 * n + 1024)
      ((outsAt0 m c n hn).2.2.2.1 (ix2 (0 : Fin 1) (0 : Fin 1)))
      ((outsAt0 m c n hn).2.2.2.2.1 (ix2 (0 : Fin 1) (0 : Fin 1)))
      (fun d : Fin 1024 => (outsAt0 m c n hn).2.2.2.2.2 (ix2 (0 : Fin 1) d)) := by
  induction n with
  | zero =>
    intro hn
    exact carried_first m c hR ⟨0, hn⟩ rfl (by show ¬(0 : ℕ) % 8 = 7; decide)
  | succ n ih =>
    intro hn
    have hN : cfg0.N = 16 := N_0
    by_cases h0 : (n + 1) % 8 = 0
    · have e : 8192 * ((n + 1) / 8) = 1024 * (n + 1) := by omega
      rw [e]
      exact carried_first m c hR ⟨n + 1, hn⟩ h0 (by show ¬(n + 1) % 8 = 7; omega)
    · have e : 8192 * ((n + 1) / 8) = 8192 * (n / 8) := by omega
      rw [e]
      have hp := ih (Nat.lt_of_succ_lt hn)
      have e2 : 1024 * n + 1024 = 1024 * (n + 1) := by ring
      rw [e2] at hp
      exact carried_next m c hR ⟨n + 1, hn⟩ h0 (8192 * (n / 8)) (by show 8192 * (n / 8) ≤ 1024 * (n + 1); omega) hp

end Cert.KernelIdeal.Carried

end
-- ==== Proof.AttnSpec.lean ====
/-
  The attention score of a row, as one function of the five argument arrays, over the extended reals.

  With h the 16384×1024 rows, q the 1×1024 query row, W the 1024×2048 weight (its first 1024 columns acting on a row, its
  last 1024 on the query), b the bias and u the 1024×1 scoring column,
      score j = ∑ a, tanh ((∑ k, h j k · W a k) + (b a + ∑ k, q k · W a (1024 + k))) · u a.
  The same number written with ONE contraction over the 2048 joined columns, (∑ k<2048, [h j | q] k · W a k) + b a, is
  equal to it by splitting the sum at column 1024 and re-associating — laws of addition that hold for all extended reals.
  When every entry is real, so is every score (tanh of a real is real, and sums and products of reals are real).
-/
import Idealize.ShloMosaic.PureOps.Ideal
import Idealize.ShloMosaic.Lib.ValueIdx
import Mathlib.Algebra.BigOperators.Fin
import proofs.«144839_j35124242547322_2_alg».proof.Proof.LibOnlineSoftmax

noncomputable section

namespace Cert.Attn

open Idealize.ShloMosaic Idealize.ShloMosaic.ValueIdx Finset

abbrev SH : Shape := ⟨2, ![16384, 1024]⟩
abbrev SQ : Shape := ⟨2, ![1, 1024]⟩
abbrev SW : Shape := ⟨2, ![1024, 2048]⟩
abbrev SB : Shape := ⟨1, ![1024]⟩
abbrev SU : Shape := ⟨2, ![1024, 1]⟩

/-- Column k of the weight's first half, and of its second half. -/
abbrev colL (k : Fin 1024) : Fin 2048 := ⟨k.val, by omega⟩
abbrev colR (k : Fin 1024) : Fin 2048 := ⟨1024 + k.val, by omega⟩

/-- The query's contribution to entry a, with the bias: b a + ∑ k, q k · W a (1024 + k). -/
def qbias (X1 : SQ.Idx → EReal) (X2 : SW.Idx → EReal) (X3 : SB.Idx → EReal) (a : Fin 1024) : EReal :=
  X3 (ix1 a) + ∑ k : Fin 1024, X1 (ix2 (0 : Fin 1) k) * X2 (ix2 a (colR k))

/-- The score of row j. -/
def rowScore (X0 : SH.Idx → EReal) (X1 : SQ.Idx → EReal) (X2 : SW.Idx → EReal) (X3 : SB.Idx → EReal)
    (X4 : SU.Idx → EReal) (j : Fin 16384) : EReal :=
  ∑ a : Fin 1024, Ideal.tanh ((∑ k : Fin 1024, X0 (ix2 j k) * X2 (ix2 a (colL k))) + qbias X1 X2 X3 a)
    * X4 (ix2 a (0 : Fin 1))

/-- A sum over 2048 columns is the sum over the first 1024 plus the sum over the last 1024. -/
theorem sum_split (f : Fin 2048 → EReal) :
    ∑ k : Fin 2048, f k = ∑ k : Fin 1024, f (colL k) + ∑ k : Fin 1024, f (colR k) :=
  Fin.sum_univ_add (M := EReal) (a := 1024) (b := 1024) f

/-- The score with ONE contraction over the joined columns `cat` (the row on the first 1024, the query on the last). -/
theorem rowScore_joined (X0 : SH.Idx → EReal) (X1 : SQ.Idx → EReal) (X2 : SW.Idx → EReal) (X3 : SB.Idx → EReal)
    (X4 : SU.Idx → EReal) (j : Fin 16384) (cat : Fin 2048 → EReal)
    (hL : ∀ k : Fin 1024, cat (colL k) = X0 (ix2 j k)) (hR : ∀ k : Fin 1024, cat (colR k) = X1 (ix2 (0 : Fin 1) k)) :
    ∑ a : Fin 1024, Ideal.tanh ((∑ k : Fin 2048, cat k * X2 (ix2 a k)) + X3 (ix1 a)) * X4 (ix2 a (0 : Fin 1))
      = rowScore X0 X1 X2 X3 X4 j := by
  unfold rowScore qbias
  refine Finset.sum_congr rfl fun a _ => ?_
  rw [sum_split]
  simp only [hL, hR]
  rw [add_assoc, add_comm (∑ k : Fin 1024, X1 (ix2 (0 : Fin 1) k) * X2 (ix2 a (colR k))) (X3 (ix1 a))]

theorem isFin_tanh {x : EReal} (h : IsFin x) : IsFin (Ideal.tanh x) := by
  obtain ⟨r, rfl⟩ := h; exact ⟨Real.tanh r, rfl⟩

/-- Every score is real when every entry of the five arrays is. -/
theorem rowScore_isFin (X0 : SH.Idx → EReal) (X1 : SQ.Idx → EReal) (X2 : SW.Idx → EReal) (X3 : SB.Idx → EReal)
    (X4 : SU.Idx → EReal) (h0 : ∀ i, IsFin (X0 i)) (h1 : ∀ i, IsFin (X1 i)) (h2 : ∀ i, IsFin (X2 i))
    (h3 : ∀ i, IsFin (X3 i)) (h4 : ∀ i, IsFin (X4 i)) (j : Fin 16384) : IsFin (rowScore X0 X1 X2 X3 X4 j) := by
  unfold rowScore qbias
  refine isFin_sum _ _ fun a _ => (isFin_tanh (IsFin.add ?_ (IsFin.add (h3 _) ?_))).mul (h4 _)
  · exact isFin_sum _ _ fun k _ => (h0 _).mul (h2 _)
  · exact isFin_sum _ _ fun k _ => (h1 _).mul (h2 _)

/-- A real extended real is the coercion of its real part. -/
theorem IsFin.coe_toReal {x : EReal} (h : IsFin x) : ((x.toReal : ℝ) : EReal) = x := by
  obtain ⟨r, rfl⟩ := h; rw [EReal.toReal_coe]

end Cert.Attn

end
-- ==== Proof.BlockRows.lean ====
/-
  The blocks the body reads, in terms of the argument arrays.

  Before the region the host cuts the weight W into its two halves, transposes the first (the matrix the body multiplies
  rows by: entry (k, a) is W a k), contracts the query with the second and adds the bias (the 1×1024 row
  b a + ∑ k, q k · W a (1024 + k)), and transposes the scoring column u into a row; the rows h are passed as they are
  (a change of float format is the identity here).  The block of rows at grid point t is the rows 1024·t … 1024·t + 1023;
  the other three operands are whole at every point.  So a block row's score is the score of the row of h it holds.
-/
import proofs.«144839_j35124242547322_2_alg».proof.Proof.Carried
import proofs.«144839_j35124242547322_2_alg».proof.Proof.AttnSpec
import Idealize.ShloMosaic.Lib.ValueLayout
import Idealize.ShloMosaic.Lib.StableHlo.Run

set_option maxRecDepth 16384

noncomputable section

namespace Cert.KernelIdeal.Blocks

open Cert.KernelIdeal Cert.KernelIdeal.Gen Cert.KernelIdeal.Pay Cert.KernelIdeal.Carried
open Idealize.ShloMosaic Idealize.ShloMosaic.TcCoe Idealize.ShloMosaic.ValueIdx Idealize.ShloMosaic.StableHlo Idealize.SL.Sem Cert.Attn

variable (m : (ℓ : Loc nD τ sig) → Buf (Elt Ideal) ℓ) (c : Dev nD)

/-- The five argument arrays as launched. -/
def A0 : S16384x1024.Idx → EReal := m ((c : Thread nD τ).loc main_arg0)
def A1 : S1x1024.Idx → EReal := m ((c : Thread nD τ).loc main_arg1)
def A2 : S1024x2048.Idx → EReal := m ((c : Thread nD τ).loc main_arg2)
def A3 : S1024.Idx → EReal := m ((c : Thread nD τ).loc main_arg3)
def A4 : S1024x1.Idx → EReal := m ((c : Thread nD τ).loc main_arg4)

/-! ## The four operands as the region finds them -/

theorem V9 : @Eq (S16384x1024.Idx → EReal) (V m c main_v9) (truncf (F := Ideal) (φ := .f32) .bf16 (A0 m c) bitsLt_bf16_f32) := by
  show StableHlo.after hostOps0 (fun b => m (c, b)) (Proc.devRef .tc main_v9) = _
  after_results
  rfl

theorem V3 : @Eq (S1024x1024.Idx → EReal) (V m c main_v3)
    (truncf (F := Ideal) (φ := .f32) .bf16 (transpose (α := EReal) S1024x1024 [1, 0]
        (extractStridedSlice (α := EReal) S1024x1024 ![0, 0] (A2 m c) slices_S1024x2048_S1024x1024_0_0)
        transposes_S1024x1024_S1024x1024_1_0) bitsLt_bf16_f32) := by
  show StableHlo.after hostOps0 (fun b => m (c, b)) (Proc.devRef .tc main_v3) = _
  after_results
  rfl

theorem V7 : @Eq (S1x1024.Idx → EReal) (V m c main_v7)
    (addf (F := Ideal) (φ := .f32) (broadcastInDim (α := EReal) S1x1024 ![1] bcast_S1024_S1x1024_1 (A3 m c))
        (Host.dotGeneral (F := Ideal) (φ₁ := .f32) (φ₂ := .f32) dot_S1x1024_S1024x1024_S1x1024_1_0_0_1_n_n none (A1 m c)
          (transpose (α := EReal) S1024x1024 [1, 0]
            (extractStridedSlice (α := EReal) S1024x1024 ![0, 1024] (A2 m c) slices_S1024x2048_S1024x1024_0_1024)
            transposes_S1024x1024_S1024x1024_1_0))) := by
  show StableHlo.after hostOps0 (fun b => m (c, b)) (Proc.devRef .tc main_v7) = _
  after_results
  rfl

theorem V8 : @Eq (S1x1024.Idx → EReal) (V m c main_v8)
    (transpose (α := EReal) S1x1024 [1, 0] (A4 m c) transposes_S1024x1_S1x1024_1_0) := by
  show StableHlo.after hostOps0 (fun b => m (c, b)) (Proc.devRef .tc main_v8) = _
  after_results
  rfl

/-! ## The query's contraction, at an entry -/

abbrev DQ := dot_S1x1024_S1024x1024_S1x1024_1_0_0_1_n_n

theorem qlhs0 (i : S1x1024.Idx) (q : DQ.contr.Idx) : (DQ.lhsIdx i q 0).val = (i 0).val := by
  unfold DotDims.lhsIdx
  rw [dif_neg (show ¬(0 : Fin S1x1024.rank) ∈ DQ.lhsBatch by decide),
    dif_pos (show (0 : Fin S1x1024.rank) ∈ DQ.lhsNonContracting by decide)]
  rfl
theorem qlhs1 (i : S1x1024.Idx) (q : DQ.contr.Idx) : (DQ.lhsIdx i q 1).val = (q ⟨0, by decide⟩).val :=
  DQ.lhsIdx_val_of_single rfl i q
theorem qrhs0 (i : S1x1024.Idx) (q : DQ.contr.Idx) : (DQ.rhsIdx i q 0).val = (q ⟨0, by decide⟩).val :=
  DQ.rhsIdx_val_of_single rfl i q
theorem qrhs1 (i : S1x1024.Idx) (q : DQ.contr.Idx) : (DQ.rhsIdx i q 1).val = (i 1).val := by
  unfold DotDims.rhsIdx
  rw [dif_neg (show ¬(1 : Fin S1024x1024.rank) ∈ DQ.rhsBatch by decide),
    dif_pos (show (1 : Fin S1024x1024.rank) ∈ DQ.rhsNonContracting by decide)]
  rfl

theorem qdot_apply (l : FVec Ideal S1x1024 .f32) (r : FVec Ideal S1024x1024 .f32) (a : Fin 1024) :
    Host.dotGeneral (F := Ideal) (φ₁ := .f32) (φ₂ := .f32) DQ none l r (ix2 (0 : Fin 1) a) = ∑ k : Fin 1024, l (ix2 (0 : Fin 1) k) * r (ix2 k a) := by
  simp only [Host.dotGeneral]
  rw [Ideal.dotGeneral_apply, ← Equiv.sum_comp (ValueIdx.contrEquiv1 DQ 1024 rfl rfl).symm]
  refine Finset.sum_congr rfl fun k _ => ?_
  have hk := ValueIdx.contrEquiv1_symm_val DQ 1024 rfl rfl k
  have el : DQ.lhsIdx (ix2 (0 : Fin 1) a) ((ValueIdx.contrEquiv1 DQ 1024 rfl rfl).symm k) = ix2 (0 : Fin 1) k :=
    funext fun b => Fin.ext (by
      match b with
      | ⟨0, _⟩ => exact qlhs0 _ _
      | ⟨1, _⟩ => exact (qlhs1 _ _).trans hk)
  have er : DQ.rhsIdx (ix2 (0 : Fin 1) a) ((ValueIdx.contrEquiv1 DQ 1024 rfl rfl).symm k) = ix2 k a :=
    funext fun b => Fin.ext (by
      match b with
      | ⟨0, _⟩ => exact (qrhs0 _ _).trans hk
      | ⟨1, _⟩ => exact qrhs1 _ _)
  rw [el, er]

/-! ## The windows' block indices, decided over the grid -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)

/-- The row of h that row r of the block at point t holds. -/
def rowOf (t : Fin cfg0.N) (r : Fin 1024) : Fin 16384 :=
  ⟨1024 * t.val + r.val, by have := t.isLt; have hN : cfg0.N = 16 := N_0; have := r.isLt; omega⟩

/-! ## The blocks -/

theorem blk0 (t : Fin cfg0.N) (r d : Fin 1024) :
    (iblk m c 0 t : FVec Ideal S1024x1024 .bf16) (ix2 r d) = A0 m c (ix2 (rowOf t r) d) := by
  show (V m c main_v9 : S16384x1024.Idx → EReal) (((cfg0.win 0).blk t).view.emb (ix2 r d)) = _
  refine (congrFun (V9 m c) _).trans ?_
  show A0 m c _ = A0 m c _
  refine congrArg (A0 m c) (funext fun a => Fin.ext ?_)
  match a with
  | ⟨0, _⟩ => show win0_0.index t (0 : Fin 2) * 1024 + 1 * r.val = 1024 * t.val + r.val; rw [(idx0 t).1]; omega
  | ⟨1, _⟩ => show win0_0.index t (1 : Fin 2) * 1024 + 1 * d.val = d.val; rw [(idx0 t).2]; omega

theorem blk1 (t : Fin cfg0.N) (k a : Fin 1024) :
    (iblk m c 1 t : FVec Ideal S1024x1024 .bf16) (ix2 k a) = A2 m c (ix2 a (colL k)) := by
  show (V m c main_v3 : S1024x1024.Idx → EReal) (((cfg0.win 1).blk t).view.emb (ix2 k a)) = _
  have he : ((cfg0.win 1).blk t).view.emb (ix2 k a) = (ix2 k a : S1024x1024.Idx) := funext fun b => Fin.ext (by
    match b with
    | ⟨0, _⟩ => show win0_1.index t (0 : Fin 2) * 1024 + 1 * k.val = k.val; rw [(idx1 t).1]; omega
    | ⟨1, _⟩ => show win0_1.index t (1 : Fin 2) * 1024 + 1 * a.val = a.val; rw [(idx1 t).2]; omega)
  rw [he]
  refine (congrFun (V3 m c) _).trans ?_
  show transpose (α := EReal) S1024x1024 [1, 0]
    (extractStridedSlice (α := EReal) S1024x1024 ![0, 0] (A2 m c) slices_S1024x2048_S1024x1024_0_0)
    transposes_S1024x1024_S1024x1024_1_0 (ix2 k a) = _
  exact (transpose_ix2_apply (extractStridedSlice (α := EReal) S1024x1024 ![0, 0] (A2 m c) slices_S1024x2048_S1024x1024_0_0)
    transposes_S1024x1024_S1024x1024_1_0 k a).trans
    (slice2_axis1_apply 0 (A2 m c) slices_S1024x2048_S1024x1024_0_0 a k (colL k) (by show k.val = 0 + k.val; omega))

theorem blk2 (t : Fin cfg0.N) (a : Fin 1024) :
    (iblk m c 2 t : FVec Ideal S1x1024 .f32) (ix2 (0 : Fin 1) a) = qbias (A1 m c) (A2 m c) (A3 m c) a := by
  show (V m c main_v7 : S1x1024.Idx → EReal) (((cfg0.win 2).blk t).view.emb (ix2 (0 : Fin 1) a)) = _
  have he : ((cfg0.win 2).blk t).view.emb (ix2 (0 : Fin 1) a) = (ix2 (0 : Fin 1) a : S1x1024.Idx) := funext fun b => Fin.ext (by
    match b with
    | ⟨0, _⟩ => show win0_2.index t (0 : Fin 2) * 1 + 1 * 0 = 0; rw [(idx2 t).1]
    | ⟨1, _⟩ => show win0_2.index t (1 : Fin 2) * 1024 + 1 * a.val = a.val; rw [(idx2 t).2]; omega)
  rw [he]
  refine (congrFun (V7 m c) _).trans ?_
  unfold qbias
  refine congrArg₂ (· + ·) ?_ ((qdot_apply _ _ a).trans (Finset.sum_congr rfl fun k _ => congrArg (A1 m c (ix2 (0 : Fin 1) k) * ·) ?_))
  · exact broadcastInDim_apply _ bcast_S1024_S1x1024_1 (A3 m c) (ix2 (0 : Fin 1) a) (ix1 a) (fun b => by
      match b with
      | ⟨0, _⟩ => show a.val = if (1024 : Nat) = 1 then 0 else a.val; rw [if_neg (by decide)])
  · exact (transpose_ix2_apply (extractStridedSlice (α := EReal) S1024x1024 ![0, 1024] (A2 m c) slices_S1024x2048_S1024x1024_0_1024)
      transposes_S1024x1024_S1024x1024_1_0 k a).trans
      (slice2_axis1_apply 1024 (A2 m c) slices_S1024x2048_S1024x1024_0_1024 a k (colR k) rfl)

theorem blk3 (t : Fin cfg0.N) (a : Fin 1024) :
    (iblk m c 3 t : FVec Ideal S1x1024 .f32) (ix2 (0 : Fin 1) a) = A4 m c (ix2 a (0 : Fin 1)) := by
  show (V m c main_v8 : S1x1024.Idx → EReal) (((cfg0.win 3).blk t).view.emb (ix2 (0 : Fin 1) a)) = _
  have he : ((cfg0.win 3).blk t).view.emb (ix2 (0 : Fin 1) a) = (ix2 (0 : Fin 1) a : S1x1024.Idx) := funext fun b => Fin.ext (by
    match b with
    | ⟨0, _⟩ => show win0_3.index t (0 : Fin 2) * 1 + 1 * 0 = 0; rw [(idx3 t).1]
    | ⟨1, _⟩ => show win0_3.index t (1 : Fin 2) * 1024 + 1 * a.val = a.val; rw [(idx3 t).2]; omega)
  rw [he]
  refine (congrFun (V8 m c) _).trans ?_
  exact transpose_ix2_apply (A4 m c) transposes_S1024x1_S1x1024_1_0 (0 : Fin 1) a

/-- A block row's score is the score of the row of h it holds. -/
theorem score_blk (t : Fin cfg0.N) (r : Fin 1024) :
    score (iblk m c 0 t) (iblk m c 1 t) (iblk m c 2 t) (iblk m c 3 t) r
      = rowScore (A0 m c) (A1 m c) (A2 m c) (A3 m c) (A4 m c) (rowOf t r) := by
  unfold score rowScore
  refine Finset.sum_congr rfl fun a _ => ?_
  exact congrArg₂ (· * ·) (congrArg Ideal.tanh (congrArg₂ (· + ·)
    (Finset.sum_congr rfl fun k _ => congrArg₂ (· * ·) (blk0 m c t r k) (blk1 m c t k a)) (blk2 m c t a))) (blk3 m c t a)

/-! ## The real scores and rows -/

/-- The scores and the rows as reals (their real parts; off the array, zero). -/
def βr (j : ℕ) : ℝ := if h : j < 16384 then (rowScore (A0 m c) (A1 m c) (A2 m c) (A3 m c) (A4 m c) ⟨j, h⟩).toReal else 0
def Hr (j : ℕ) (d : Fin 1024) : ℝ := if h : j < 16384 then (A0 m c (ix2 (⟨j, h⟩ : Fin 16384) d)).toReal else 0

/-- The argument arrays hold real numbers. -/
structure Finite : Prop where
  f0 : ∀ i, IsFin (A0 m c i)
  f1 : ∀ i, IsFin (A1 m c i)
  f2 : ∀ i, IsFin (A2 m c i)
  f3 : ∀ i, IsFin (A3 m c i)
  f4 : ∀ i, IsFin (A4 m c i)

theorem Finite.score (hf : Finite m c) (j : Fin 16384) : IsFin (rowScore (A0 m c) (A1 m c) (A2 m c) (A3 m c) (A4 m c) j) :=
  rowScore_isFin _ _ _ _ _ hf.f0 hf.f1 hf.f2 hf.f3 hf.f4 j

theorem βr_eq (hf : Finite m c) (j : Fin 16384) :
    rowScore (A0 m c) (A1 m c) (A2 m c) (A3 m c) (A4 m c) j = ((βr m c j.val : ℝ) : EReal) := by
  unfold βr
  rw [dif_pos j.isLt]
  exact ((Finite.score m c hf j).coe_toReal).symm

theorem Hr_eq (hf : Finite m c) (j : Fin 16384) (d : Fin 1024) :
    A0 m c (ix2 j d) = ((Hr m c j.val d : ℝ) : EReal) := by
  unfold Hr
  rw [dif_pos j.isLt]
  exact ((hf.f0 _).coe_toReal).symm

/-- With real arguments, the blocks hold the rows as the induction over the grid points needs them. -/
theorem rows (hf : Finite m c) : Rows m c (βr m c) (Hr m c) where
  sc t r := (score_blk m c t r).trans (βr_eq m c hf (rowOf t r))
  h t r d := (blk0 m c t r d).trans (Hr_eq m c hf (rowOf t r) d)

end Cert.KernelIdeal.Blocks

end
-- ==== Proof.KValue.lean ====
/-
  The three output arrays after the region, and the result after the host's merge.

  Each half of the rows writes its final carried state to its own slot of the three output arrays: slot g (g = 0, 1) holds
  the shift, the exponential sum and the weighted row sum left after grid point 8g + 7, and the two slots cover the
  arrays.  After the region the host reads the two slots back and merges them exactly as the streaming form merges two
  adjacent partial states — the larger shift, both sums rescaled to it and added — and divides the merged row sum by
  the merged exponential sum.
-/
import proofs.«144839_j35124242547322_2_alg».proof.Proof.BlockRows
import Idealize.ShloMosaic.Lib.Pipeline.Value
import Idealize.ShloMosaic.Lib.StableHlo.Run
import Idealize.ShloMosaic.Lib.ValueLayout

set_option maxRecDepth 16384

noncomputable section

namespace Cert.KernelIdeal.KValue

open Cert.KernelIdeal Cert.KernelIdeal.Gen Cert.KernelIdeal.Pay Cert.KernelIdeal.Carried Cert.KernelIdeal.Blocks
open Idealize.ShloMosaic Idealize.ShloMosaic.TcCoe Idealize.ShloMosaic.ValueIdx Idealize.ShloMosaic.StableHlo Idealize.SL.Sem Cert.Attn
open Idealize.ShloMosaic.Pipeline (Dat)

variable (m : (ℓ : Loc nD τ sig) → Buf (Elt Ideal) ℓ) (ρ : Dev nD → PrngReg) (c : Dev nD)

/-! ## The carried values after point n, as plain numbers -/

def Mn (n : ℕ) : EReal := if h : n < cfg0.N then (outsAt0 m c n h).2.2.2.1 (ix2 (0 : Fin 1) (0 : Fin 1)) else 0
def Ln (n : ℕ) : EReal := if h : n < cfg0.N then (outsAt0 m c n h).2.2.2.2.1 (ix2 (0 : Fin 1) (0 : Fin 1)) else 0
def An (n : ℕ) (d : Fin 1024) : EReal := if h : n < cfg0.N then (outsAt0 m c n h).2.2.2.2.2 (ix2 (0 : Fin 1) d) else 0

/-- The three output arrays: slot g holds the carried values after point 8g + 7. -/
def G4 : S2x1x1.Idx → EReal := fun i => Mn m c (8 * (i 0).val + 7)
def G5 : S2x1x1.Idx → EReal := fun i => Ln m c (8 * (i 0).val + 7)
def G6 : S2x1x1024.Idx → EReal := fun i => An m c (8 * (i 0).val + 7) ⟨(i 2).val, (i 2).isLt⟩

/-! ## The recasts copied to the outputs, at any index -/

theorem pay3_all (v : FVec Ideal S1x1 .f32) (y : S1x1x1.Idx) :
    k0_pay3 (F := Ideal) v y = v (ix2 (0 : Fin 1) (0 : Fin 1)) := by
  obtain ⟨u, a, b, rfl⟩ : ∃ (u a b : Fin 1), y = ix3 u a b := ⟨y 0, y 1, y 2, eq_ix3 y⟩
  rw [pay3_apply, Subsingleton.elim a 0, Subsingleton.elim b 0]

theorem pay4_all (v : FVec Ideal S1x1 .f32) (y : S1x1x1.Idx) :
    k0_pay4 (F := Ideal) v y = v (ix2 (0 : Fin 1) (0 : Fin 1)) := by
  obtain ⟨u, a, b, rfl⟩ : ∃ (u a b : Fin 1), y = ix3 u a b := ⟨y 0, y 1, y 2, eq_ix3 y⟩
  rw [pay4_apply, Subsingleton.elim a 0, Subsingleton.elim b 0]

theorem pay5_all (v : FVec Ideal S1x1024 .f32) (y : S1x1x1024.Idx) :
    k0_pay5 (F := Ideal) v y = v (ix2 (0 : Fin 1) (⟨(y 2).val, (y 2).isLt⟩ : Fin 1024)) := by
  obtain ⟨u, a, d, rfl⟩ : ∃ (u a : Fin 1) (d : Fin 1024), y = ix3 u a d := ⟨y 0, y 1, y 2, eq_ix3 y⟩
  rw [pay5_apply, Subsingleton.elim a 0]

/-! ## The output windows' block indices, decided over the grid -/

theorem idx4 : ∀ t : Fin cfg0.N, win0_4.index t (0 : Fin 3) = t.val / 8 ∧ win0_4.index t (1 : Fin 3) = 0 ∧ win0_4.index t (2 : Fin 3) = 0 :=
  (by decide +kernel : ∀ t : Fin grid0.N, _)
theorem idx5 : ∀ t : Fin cfg0.N, win0_5.index t (0 : Fin 3) = t.val / 8 ∧ win0_5.index t (1 : Fin 3) = 0 ∧ win0_5.index t (2 : Fin 3) = 0 :=
  (by decide +kernel : ∀ t : Fin grid0.N, _)
theorem idx6 : ∀ t : Fin cfg0.N, win0_6.index t (0 : Fin 3) = t.val / 8 ∧ win0_6.index t (1 : Fin 3) = 0 ∧ win0_6.index t (2 : Fin 3) = 0 :=
  (by decide +kernel : ∀ t : Fin grid0.N, _)

/-- What a write-back of output 0 writes is its block of the array of carried values. -/
theorem flushed4 (t : Fin cfg0.N) (hf : (cfg0.win 4).flush t = true) :
    (dats m 0 c).flushed 4 t = ((cfg0.win 4).blk t).view.read (Elt Ideal) (G4 m c) := by
  have h7 : t.val % 8 = 7 := (flush0_4 t).mp hf
  have h0 : ¬t.val % 8 = 0 := by omega
  show (cfg0.win 4).cut (grid0.coords t) ((dats m 0 c).after 4 t) = _
  rw [after0_4, out4_eq m c t h0 h7]
  funext y
  have hy0 : (y 0).val < 1 := (y 0).isLt
  show k0_pay3 (F := Ideal) ((outsAt0 m c t.val t.isLt).2.2.2.1) y = G4 m c (((cfg0.win 4).blk t).view.emb y)
  rw [pay3_all]
  have he : ((((cfg0.win 4).blk t).view.emb y) 0).val = win0_4.index t (0 : Fin 3) * 1 + 1 * (y 0).val := rfl
  have hn : 8 * ((((cfg0.win 4).blk t).view.emb y) 0).val + 7 = t.val := by rw [he, (idx4 t).1]; omega
  show _ = Mn m c (8 * ((((cfg0.win 4).blk t).view.emb y) 0).val + 7)
  rw [hn]
  unfold Mn
  rw [dif_pos t.isLt]

/-- Every index of output 0's array is in the block written back at the last point of its half. -/
theorem cover4 (i : S2x1x1.Idx) :
    ∃ t : Fin cfg0.N, (cfg0.win 4).flush t = true ∧ i ∈ ((cfg0.win 4).blk t).view.set := by
  have hN : cfg0.N = 16 := N_0
  have hi0 : (i 0).val < 2 := (i 0).isLt
  have hi1 : (i 1).val < 1 := (i 1).isLt
  have hi2 : (i 2).val < 1 := (i 2).isLt
  obtain ⟨t, ht⟩ : ∃ t : Fin cfg0.N, t.val = 8 * (i 0).val + 7 := ⟨⟨8 * (i 0).val + 7, by omega⟩, rfl⟩
  refine ⟨t, (flush0_4 t).mpr (by omega), ?_⟩
  show i ∈ ((View.whole main_v10_0).slice (win0_4.rect t)).set
  rw [View.set_slice_whole, Rect.mem_set_unit]
  obtain ⟨e0, e1, e2⟩ := idx4 t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 1 ≤ (i 2).val ∧ (i 2).val < win0_4.index t (2 : Fin 3) * 1 + 1; omega

/-- So output 0's array ends holding the carried values, slot by slot. -/
theorem final4 : (dats m 0 c).arrAt 4 cfg0.N = G4 m c :=
  (dats m 0 c).arrAt_eq_of_cover 4 (G4 m c) (flushed4 m c) cover4

/-- What a write-back of output 1 writes is its block of the array of carried values. -/
theorem flushed5 (t : Fin cfg0.N) (hf : (cfg0.win 5).flush t = true) :
    (dats m 0 c).flushed 5 t = ((cfg0.win 5).blk t).view.read (Elt Ideal) (G5 m c) := by
  have h7 : t.val % 8 = 7 := (flush0_5 t).mp hf
  have h0 : ¬t.val % 8 = 0 := by omega
  show (cfg0.win 5).cut (grid0.coords t) ((dats m 0 c).after 5 t) = _
  rw [after0_5, out5_eq m c t h0 h7]
  funext y
  have hy0 : (y 0).val < 1 := (y 0).isLt
  show k0_pay4 (F := Ideal) ((outsAt0 m c t.val t.isLt).2.2.2.2.1) y = G5 m c (((cfg0.win 5).blk t).view.emb y)
  rw [pay4_all]
  have he : ((((cfg0.win 5).blk t).view.emb y) 0).val = win0_5.index t (0 : Fin 3) * 1 + 1 * (y 0).val := rfl
  have hn : 8 * ((((cfg0.win 5).blk t).view.emb y) 0).val + 7 = t.val := by rw [he, (idx5 t).1]; omega
  show _ = Ln m c (8 * ((((cfg0.win 5).blk t).view.emb y) 0).val + 7)
  rw [hn]
  unfold Ln
  rw [dif_pos t.isLt]

/-- Every index of output 1's array is in the block written back at the last point of its half. -/
theorem cover5 (i : S2x1x1.Idx) :
    ∃ t : Fin cfg0.N, (cfg0.win 5).flush t = true ∧ i ∈ ((cfg0.win 5).blk t).view.set := by
  have hN : cfg0.N = 16 := N_0
  have hi0 : (i 0).val < 2 := (i 0).isLt
  have hi1 : (i 1).val < 1 := (i 1).isLt
  have hi2 : (i 2).val < 1 := (i 2).isLt
  obtain ⟨t, ht⟩ : ∃ t : Fin cfg0.N, t.val = 8 * (i 0).val + 7 := ⟨⟨8 * (i 0).val + 7, by omega⟩, rfl⟩
  refine ⟨t, (flush0_5 t).mpr (by omega), ?_⟩
  show i ∈ ((View.whole main_v10_1).slice (win0_5.rect t)).set
  rw [View.set_slice_whole, Rect.mem_set_unit]
  obtain ⟨e0, e1, e2⟩ := idx5 t
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 1 ≤ (i 2).val ∧ (i 2).val < win0_5.index t (2 : Fin 3) * 1 + 1; omega

/-- So output 1's array ends holding the carried values, slot by slot. -/
theorem final5 : (dats m 0 c).arrAt 5 cfg0.N = G5 m c :=
  (dats m 0 c).arrAt_eq_of_cover 5 (G5 m c) (flushed5 m c) cover5

/-- The recast row, read at a block index y, is the array of carried values at any array index e that names the same slot
    and the same column. -/
theorem key6 (v : FVec Ideal S1x1024 .f32) (n : ℕ) (hv : ∀ d : Fin 1024, v (ix2 (0 : Fin 1) d) = An m c n d)
    (y : S1x1x1024.Idx) (e : S2x1x1024.Idx) (he0 : 8 * (e 0).val + 7 = n) (he2 : (e 2).val = (y 2).val) :
    k0_pay5 (F := Ideal) v y = G6 m c e := by
  rw [pay5_all, hv]
  unfold G6
  rw [he0]
  exact congrArg (An m c n) (Fin.ext he2.symm)

/-- What a write-back of output 2 writes is its block of the array of carried values. -/
theorem flushed6 (t : Fin cfg0.N) (hf : (cfg0.win 6).flush t = true) :
    (dats m 0 c).flushed 6 t = ((cfg0.win 6).blk t).view.read (Elt Ideal) (G6 m c) := by
  have h7 : t.val % 8 = 7 := (flush0_6 t).mp hf
  have h0 : ¬t.val % 8 = 0 := by omega
  show (cfg0.win 6).cut (grid0.coords t) ((dats m 0 c).after 6 t) = _
  rw [after0_6, out6_eq m c t h0 h7]
  funext y
  have hy0 : (y 0).val < 1 := (y 0).isLt
  show k0_pay5 (F := Ideal) ((outsAt0 m c t.val t.isLt).2.2.2.2.2) y = G6 m c (((cfg0.win 6).blk t).view.emb y)
  have he : ((((cfg0.win 6).blk t).view.emb y) 0).val = win0_6.index t (0 : Fin 3) * 1 + 1 * (y 0).val := rfl
  have he2 : ((((cfg0.win 6).blk t).view.emb y) 2).val = win0_6.index t (2 : Fin 3) * 1024 + 1 * (y 2).val := rfl
  refine key6 m c _ t.val (fun d => ?_) y _ (by rw [he, (idx6 t).1]; omega) (by rw [he2, (idx6 t).2.2]; omega)
  unfold An
  rw [dif_pos t.isLt]

/-- Every index of output 2's array is in the block written back at the last point of its half. -/
theorem cover6 (i : S2x1x1024.Idx) :
    ∃ t : Fin cfg0.N, (cfg0.win 6).flush t = true ∧ i ∈ ((cfg0.win 6).blk t).view.set := by
  have hN : cfg0.N = 16 := N_0
  have hi0 : (i 0).val < 2 := (i 0).isLt
  have hi1 : (i 1).val < 1 := (i 1).isLt
  have hi2 : (i 2).val < 1024 := (i 2).isLt
  obtain ⟨t, ht⟩ : ∃ t : Fin cfg0.N, t.val = 8 * (i 0).val + 7 := ⟨⟨8 * (i 0).val + 7, by omega⟩, rfl⟩
  refine ⟨t, (flush0_6 t).mpr (by omega), ?_⟩
  show i ∈ ((View.whole main_v10_2).slice (win0_6.rect t)).set
  rw [View.set_slice_whole, Rect.mem_set_unit]
  obtain ⟨e0, e1, e2⟩ := idx6 t
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1 ≤ (i 1).val ∧ (i 1).val < win0_6.index t (1 : Fin 3) * 1 + 1; omega
  | ⟨2, _⟩ => show win0_6.index t (2 : Fin 3) * 1024 ≤ (i 2).val ∧ (i 2).val < win0_6.index t (2 : Fin 3) * 1024 + 1024; omega

/-- So output 2's array ends holding the carried values, slot by slot. -/
theorem final6 : (dats m 0 c).arrAt 6 cfg0.N = G6 m c :=
  (dats m 0 c).arrAt_eq_of_cover 6 (G6 m c) (flushed6 m c) cover6

/-! ## The host's merge of the two slots -/

/-- The lines after the region, as one function of the three output arrays: the two slots of each read back, the merge,
    the quotient. -/
def tailFn (g4 g5 : S2x1x1.Idx → EReal) (g6 : S2x1x1024.Idx → EReal) : S1x1024.Idx → EReal :=
  Host.divf (F := Ideal) (φ := .f32)
    (addf (F := Ideal) (φ := .f32)
      (mulf (F := Ideal) (φ := .f32)
        (broadcastInDim (α := EReal) S1x1024 ![] bcast_S_S1x1024
          (Host.exp (F := Ideal) (φ := .f32) (subf (F := Ideal) (φ := .f32)
            (shapeCast (α := EReal) S_ (extractStridedSlice (α := EReal) S1x1x1 ![0, 0, 0] g4 slices_S2x1x1_S1x1x1_0_0_0) shapeCasts_S1x1x1_S_)
            (maximumf (F := Ideal) (φ := .f32)
              (shapeCast (α := EReal) S_ (extractStridedSlice (α := EReal) S1x1x1 ![0, 0, 0] g4 slices_S2x1x1_S1x1x1_0_0_0) shapeCasts_S1x1x1_S_)
              (shapeCast (α := EReal) S_ (extractStridedSlice (α := EReal) S1x1x1 ![1, 0, 0] g4 slices_S2x1x1_S1x1x1_1_0_0) shapeCasts_S1x1x1_S_)))))
        (shapeCast (α := EReal) S1x1024 (extractStridedSlice (α := EReal) S1x1x1024 ![0, 0, 0] g6 slices_S2x1x1024_S1x1x1024_0_0_0) shapeCasts_S1x1x1024_S1x1024))
      (mulf (F := Ideal) (φ := .f32)
        (broadcastInDim (α := EReal) S1x1024 ![] bcast_S_S1x1024
          (Host.exp (F := Ideal) (φ := .f32) (subf (F := Ideal) (φ := .f32)
            (shapeCast (α := EReal) S_ (extractStridedSlice (α := EReal) S1x1x1 ![1, 0, 0] g4 slices_S2x1x1_S1x1x1_1_0_0) shapeCasts_S1x1x1_S_)
            (maximumf (F := Ideal) (φ := .f32)
              (shapeCast (α := EReal) S_ (extractStridedSlice (α := EReal) S1x1x1 ![0, 0, 0] g4 slices_S2x1x1_S1x1x1_0_0_0) shapeCasts_S1x1x1_S_)
              (shapeCast (α := EReal) S_ (extractStridedSlice (α := EReal) S1x1x1 ![1, 0, 0] g4 slices_S2x1x1_S1x1x1_1_0_0) shapeCasts_S1x1x1_S_)))))
        (shapeCast (α := EReal) S1x1024 (extractStridedSlice (α := EReal) S1x1x1024 ![1, 0, 0] g6 slices_S2x1x1024_S1x1x1024_1_0_0) shapeCasts_S1x1x1024_S1x1024)))
    (broadcastInDim (α := EReal) S1x1024 ![] bcast_S_S1x1024
      (addf (F := Ideal) (φ := .f32)
        (mulf (F := Ideal) (φ := .f32)
          (Host.exp (F := Ideal) (φ := .f32) (subf (F := Ideal) (φ := .f32)
            (shapeCast (α := EReal) S_ (extractStridedSlice (α := EReal) S1x1x1 ![0, 0, 0] g4 slices_S2x1x1_S1x1x1_0_0_0) shapeCasts_S1x1x1_S_)
            (maximumf (F := Ideal) (φ := .f32)
              (shapeCast (α := EReal) S_ (extractStridedSlice (α := EReal) S1x1x1 ![0, 0, 0] g4 slices_S2x1x1_S1x1x1_0_0_0) shapeCasts_S1x1x1_S_)
              (shapeCast (α := EReal) S_ (extractStridedSlice (α := EReal) S1x1x1 ![1, 0, 0] g4 slices_S2x1x1_S1x1x1_1_0_0) shapeCasts_S1x1x1_S_))))
          (shapeCast (α := EReal) S_ (extractStridedSlice (α := EReal) S1x1x1 ![0, 0, 0] g5 slices_S2x1x1_S1x1x1_0_0_0) shapeCasts_S1x1x1_S_))
        (mulf (F := Ideal) (φ := .f32)
          (Host.exp (F := Ideal) (φ := .f32) (subf (F := Ideal) (φ := .f32)
            (shapeCast (α := EReal) S_ (extractStridedSlice (α := EReal) S1x1x1 ![1, 0, 0] g4 slices_S2x1x1_S1x1x1_1_0_0) shapeCasts_S1x1x1_S_)
            (maximumf (F := Ideal) (φ := .f32)
              (shapeCast (α := EReal) S_ (extractStridedSlice (α := EReal) S1x1x1 ![0, 0, 0] g4 slices_S2x1x1_S1x1x1_0_0_0) shapeCasts_S1x1x1_S_)
              (shapeCast (α := EReal) S_ (extractStridedSlice (α := EReal) S1x1x1 ![1, 0, 0] g4 slices_S2x1x1_S1x1x1_1_0_0) shapeCasts_S1x1x1_S_))))
          (shapeCast (α := EReal) S_ (extractStridedSlice (α := EReal) S1x1x1 ![1, 0, 0] g5 slices_S2x1x1_S1x1x1_1_0_0) shapeCasts_S1x1x1_S_))))

set_option maxHeartbeats 4000000 in
/-- The result buffer after the run is that function of the three arrays of carried values. -/
theorem tail_eq :
    Pipeline.afterTail₀ cfgs (dats m) 0 (V0 m) [hostOps1] c main_v37 = tailFn (G4 m c) (G5 m c) (G6 m c) := by
  have e4 : Pipeline.withArrays (cfgs 0).spec c (V0 m c) (fun w => (dats m 0 c).arrAt w (cfgs 0).N)
      (Proc.devRef .tc main_v10_0) = G4 m c :=
    (Pipeline.withArrays_arr spec0 launch0.win.arr_inj c _ _ 4).trans (final4 m c)
  have e5 : Pipeline.withArrays (cfgs 0).spec c (V0 m c) (fun w => (dats m 0 c).arrAt w (cfgs 0).N)
      (Proc.devRef .tc main_v10_1) = G5 m c :=
    (Pipeline.withArrays_arr spec0 launch0.win.arr_inj c _ _ 5).trans (final5 m c)
  have e6 : Pipeline.withArrays (cfgs 0).spec c (V0 m c) (fun w => (dats m 0 c).arrAt w (cfgs 0).N)
      (Proc.devRef .tc main_v10_2) = G6 m c :=
    (Pipeline.withArrays_arr spec0 launch0.win.arr_inj c _ _ 6).trans (final6 m c)
  unfold Pipeline.afterTail₀
  show StableHlo.after hostOps1 _ (Proc.devRef .tc main_v37) = _
  after_results_simp
  rw [e4, e5, e6]
  rfl

end Cert.KernelIdeal.KValue

end
-- ==== Proof.RefSide.lean ====
/-
  The reference, read stage by stage, is the softmax-weighted sum of the rows.

  Its score stage (a contraction of the joined columns [h j | q] with the weight, plus the bias, tanh, a contraction with
  u) is the score of AttnSpec: the joined row reads the row on its first 1024 columns and the query on its last 1024.
  Its shift M is the maximum of the scores folded from -∞, a real number when the scores are real (above the first score,
  below +∞).  Its result at column d is  ∑ k, (exp (score k - M) / (0 + ∑ k', exp (score k' - M))) · h k d.
-/
import proofs.«144839_j35124242547322_2_alg».proof.Proof.Gen.ReferenceIdeal.Read
import proofs.«144839_j35124242547322_2_alg».proof.Proof.AttnSpec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefSide

open Cert.ReferenceIdeal Cert.ReferenceIdeal.Gen Cert.ReferenceIdeal.Read Idealize.ShloMosaic Idealize.ShloMosaic.ValueIdx Cert.Attn

variable (X0 : S16384x1024.Idx → EReal) (X1 : S1x1024.Idx → EReal) (X2 : S1024x2048.Idx → EReal)
  (X3 : S1024.Idx → EReal) (X4 : S1024x1.Idx → EReal)

/-- The joined row reads the row on its first 1024 columns. -/
theorem cat_left (j : Fin 16384) (k : Fin 1024) :
    val_main_v1 (F := Ideal) X0 X1 (ix2 j (colL k)) = X0 (ix2 j k) := by
  unfold val_main_v1
  refine concatenate_pair_apply_left (t := S16384x2048) (s₁ := S16384x1024) (s₂ := S16384x1024) (1 : Fin 2) X0 _ _ (ix2 j (colL k)) rfl (ix2 j k) fun b => ?_
  match b with
  | ⟨0, _⟩ => rfl
  | ⟨1, _⟩ => rfl

/-- The joined row reads the query on its last 1024 columns. -/
theorem cat_right (j : Fin 16384) (k : Fin 1024) :
    val_main_v1 (F := Ideal) X0 X1 (ix2 j (colR k)) = X1 (ix2 (0 : Fin 1) k) := by
  unfold val_main_v1
  refine (concatenate_pair_apply_right (t := S16384x2048) (s₁ := S16384x1024) (s₂ := S16384x1024) (1 : Fin 2) X0 _ _ (ix2 j (colR k)) rfl rfl (ix2 j k) (fun b hb => ?_) ?_).trans ?_
  · match b with
    | ⟨0, _⟩ => rfl
    | ⟨1, _⟩ => exact absurd rfl hb
  · show k.val + 1024 = 1024 + k.val
    omega
  · rw [val_main_v0_apply]
    exact congrArg X1 (funext fun a => Fin.ext (by
      match a with
      | ⟨0, _⟩ => rfl
      | ⟨1, _⟩ => rfl))

/-- The score stage at row j is the score of row j. -/
theorem score_eq (j : Fin 16384) :
    val_main_v8 (F := Ideal) X0 X1 X2 X3 X4 (ix2 j (0 : Fin 1)) = rowScore X0 X1 X2 X3 X4 j := by
  rw [val_main_v8_apply]
  refine (Finset.sum_congr rfl fun a _ => ?_).trans
    (rowScore_joined X0 X1 X2 X3 X4 j (fun k => val_main_v1 (F := Ideal) X0 X1 (ix2 j k)) (cat_left X0 X1 j) (cat_right X0 X1 j))
  have hl : lidx_main_v8 (ix2 j (0 : Fin 1)) a = ix2 j a := funext fun b => Fin.ext (by
    match b with
    | ⟨0, _⟩ => rfl
    | ⟨1, _⟩ => rfl)
  have hr : ridx_main_v8 (ix2 j (0 : Fin 1)) a = ix2 a (0 : Fin 1) := funext fun b => Fin.ext (by
    match b with
    | ⟨0, _⟩ => rfl
    | ⟨1, _⟩ => rfl)
  rw [hl, hr, val_main_v7_apply, val_main_v6_apply, val_main_v3_apply, val_main_v5_apply, val_main_v4_apply]
  refine congrArg₂ (· * ·) (congrArg Ideal.tanh (congrArg₂ (· + ·) (Finset.sum_congr rfl fun k _ => ?_) ?_)) rfl
  · rw [val_main_v2_apply]
    refine congrArg₂ (· * ·) (congrArg _ (funext fun b => Fin.ext (by
      match b with
      | ⟨0, _⟩ => rfl
      | ⟨1, _⟩ => rfl))) (congrArg X2 (funext fun b => Fin.ext (by
      match b with
      | ⟨0, _⟩ => rfl
      | ⟨1, _⟩ => rfl)))
  · exact congrArg X3 (funext fun b => Fin.ext (by
      match b with
      | ⟨0, _⟩ => rfl))

/-- The reference's shift: the maximum of the scores, folded from -∞ and joined once more with -∞. -/
def shift : EReal := val_main_v12 (F := Ideal) X0 X1 X2 X3 X4 (ix1 (0 : Fin 1))

theorem ofBits_neg_inf : Ideal.ofBits .f32 0xFF800000#32 = ⊥ := by simp [Ideal.ofBits, Ideal.ieee]

/-- The shift is real when every score is. -/
theorem shift_isFin (hs : ∀ j, IsFin (rowScore X0 X1 X2 X3 X4 j)) : IsFin (shift X0 X1 X2 X3 X4) := by
  unfold shift
  rw [val_main_v12_apply, val_main_v11_apply, val_main_cst_0_apply]
  show IsFin (max (Ideal.ofBits .f32 0xFF800000#32) (val_main_v10 (F := Ideal) X0 X1 X2 X3 X4 (ix1 (0 : Fin 1))))
  rw [ofBits_neg_inf, max_eq_right bot_le]
  unfold val_main_v10
  rw [Host.reduce_eq_fold_single FloatOps.maximumf _ _ reducesTo_S1x16384_S1_d1 (by decide) h_S_ (ix1 (0 : Fin 1))]
  have hv : ∀ k : Fin 16384, IsFin (val_main_v9 (F := Ideal) X0 X1 X2 X3 X4 (ix2 (0 : Fin 1) k)) := fun k => by
    rw [val_main_v9_apply]
    have : idx_main_v9 (ix2 (0 : Fin 1) k) = ix2 k (0 : Fin 1) := funext fun b => Fin.ext (by
      match b with
      | ⟨0, _⟩ => rfl
      | ⟨1, _⟩ => rfl)
    rw [this, score_eq]
    exact hs k
  refine isFin_of_lt ?_ ?_
  · refine lt_of_lt_of_le (hv ⟨0, by decide⟩).bot_lt ?_
    refine (Finset.le_fold_max _).mpr (Or.inr ⟨⟨0, by decide⟩, Finset.mem_univ _, ?_⟩)
    exact le_of_eq (congrArg _ (funext fun b => Fin.ext (by
      match b with
      | ⟨0, _⟩ => rfl
      | ⟨1, _⟩ => rfl)))
  · refine fold_max_lt_top _ _ _ ?_ fun k _ => ?_
    · rw [val_main_cst_apply]
      show Ideal.ofBits .f32 0xFF800000#32 < ⊤
      rw [ofBits_neg_inf]; exact bot_lt_top
    · have : (Shape.Reduces.lift (by decide : S1x16384.Reduces [1] S1) (ix1 (0 : Fin 1)) k) = ix2 (0 : Fin 1) k :=
        funext fun b => Fin.ext (by
          match b with
          | ⟨0, _⟩ => rfl
          | ⟨1, _⟩ => rfl)
      show _ < ⊤
      rw [Function.comp_apply, this]
      exact (hv k).lt_top

/-- The reference's result at column d: the softmax-weighted sum of the rows, with its own shift. -/
theorem result_apply (d : Fin 1024) :
    val_main_v21 (F := Ideal) X0 X1 X2 X3 X4 (ix2 (0 : Fin 1) d)
      = ∑ k : Fin 16384, Ideal.div (Ideal.exp (rowScore X0 X1 X2 X3 X4 k - shift X0 X1 X2 X3 X4))
          (0 + ∑ k' : Fin 16384, Ideal.exp (rowScore X0 X1 X2 X3 X4 k' - shift X0 X1 X2 X3 X4)) * X0 (ix2 k d) := by
  have h16 : ∀ k : Fin 16384, val_main_v16 (F := Ideal) X0 X1 X2 X3 X4 (ix2 (0 : Fin 1) k)
      = Ideal.exp (rowScore X0 X1 X2 X3 X4 k - shift X0 X1 X2 X3 X4) := fun k => by
    rw [val_main_v16_apply, val_main_v15_apply, val_main_v9_apply, val_main_v14_apply, val_main_v13_apply]
    have e9 : idx_main_v9 (ix2 (0 : Fin 1) k) = ix2 k (0 : Fin 1) := funext fun b => Fin.ext (by
      match b with
      | ⟨0, _⟩ => rfl
      | ⟨1, _⟩ => rfl)
    have e13 : idx_main_v13 (idx_main_v14 (ix2 (0 : Fin 1) k)) = ix1 (0 : Fin 1) := funext fun b => Fin.ext (by
      match b with
      | ⟨0, _⟩ => rfl)
    rw [e9, e13, score_eq]
    rfl
  rw [val_main_v21_apply]
  refine Finset.sum_congr rfl fun k _ => ?_
  have el : lidx_main_v21 (ix2 (0 : Fin 1) d) k = ix2 (0 : Fin 1) k := funext fun b => Fin.ext (by
    match b with
    | ⟨0, _⟩ => rfl
    | ⟨1, _⟩ => rfl)
  have er : ridx_main_v21 (ix2 (0 : Fin 1) d) k = ix2 k d := funext fun b => Fin.ext (by
    match b with
    | ⟨0, _⟩ => rfl
    | ⟨1, _⟩ => rfl)
  rw [el, er, val_main_v20_apply, val_main_v19_apply, val_main_v18_apply, val_main_v17_apply, h16 k]
  refine congrArg (· * X0 (ix2 k d)) (congrArg (Ideal.div _) (congrArg₂ (· + ·) ?_ (Finset.sum_congr rfl fun k' _ => ?_)))
  · rw [val_main_cst_1_apply]; exact Ideal.ofBits_zero_f32
  · have e17 : idx_main_v17 (idx_main_v18 (idx_main_v19 (ix2 (0 : Fin 1) k))) k' = ix2 (0 : Fin 1) k' :=
      funext fun b => Fin.ext (by
        match b with
        | ⟨0, _⟩ => rfl
        | ⟨1, _⟩ => rfl)
    rw [e17, h16 k']

end Cert.ReferenceIdeal.RefSide

end
-- ==== Proof.Result.lean ====
/-
  The two results are equal.

  The kernel's result at column d is the quotient of the merged weighted row sum by the merged exponential sum of the two
  halves' final states.  Each half's final state is a partial softmax state (the induction over the grid points), the two
  merge into the state over all 16384 rows, and the quotient of a state over all rows is the softmax-weighted sum of the
  rows with ANY real shift — in particular the reference's own shift, the maximum of the scores.  That sum is the
  reference's result.
-/
import proofs.«144839_j35124242547322_2_alg».proof.Proof.KValue
import proofs.«144839_j35124242547322_2_alg».proof.Proof.RefSide

set_option maxRecDepth 16384

noncomputable section

namespace Cert.KernelIdeal.Result

open Cert.KernelIdeal Cert.KernelIdeal.Gen Cert.KernelIdeal.Carried Cert.KernelIdeal.Blocks Cert.KernelIdeal.KValue
open Idealize.ShloMosaic Idealize.ShloMosaic.TcCoe Idealize.ShloMosaic.ValueIdx Idealize.SL.Sem Cert.Attn

/-! ## The merge, read at a column -/

theorem slot0 (g : S2x1x1.Idx → EReal) :
    shapeCast (α := EReal) S_ (extractStridedSlice (α := EReal) S1x1x1 ![0, 0, 0] g slices_S2x1x1_S1x1x1_0_0_0) shapeCasts_S1x1x1_S_ ix0
      = g (ix3 (0 : Fin 2) (0 : Fin 1) (0 : Fin 1)) :=
  (shapeCast_apply _ shapeCasts_S1x1x1_S_ ix0 (ix3 (0 : Fin 1) (0 : Fin 1) (0 : Fin 1)) rfl).trans
    (extractStridedSlice_apply _ g slices_S2x1x1_S1x1x1_0_0_0 _ (ix3 (0 : Fin 2) (0 : Fin 1) (0 : Fin 1)) fun a => by
      match a with
      | ⟨0, _⟩ => rfl
      | ⟨1, _⟩ => rfl
      | ⟨2, _⟩ => rfl)

theorem slot1 (g : S2x1x1.Idx → EReal) :
    shapeCast (α := EReal) S_ (extractStridedSlice (α := EReal) S1x1x1 ![1, 0, 0] g slices_S2x1x1_S1x1x1_1_0_0) shapeCasts_S1x1x1_S_ ix0
      = g (ix3 (1 : Fin 2) (0 : Fin 1) (0 : Fin 1)) :=
  (shapeCast_apply _ shapeCasts_S1x1x1_S_ ix0 (ix3 (0 : Fin 1) (0 : Fin 1) (0 : Fin 1)) rfl).trans
    (extractStridedSlice_apply _ g slices_S2x1x1_S1x1x1_1_0_0 _ (ix3 (1 : Fin 2) (0 : Fin 1) (0 : Fin 1)) fun a => by
      match a with
      | ⟨0, _⟩ => rfl
      | ⟨1, _⟩ => rfl
      | ⟨2, _⟩ => rfl)

theorem row0 (g : S2x1x1024.Idx → EReal) (d : Fin 1024) :
    shapeCast (α := EReal) S1x1024 (extractStridedSlice (α := EReal) S1x1x1024 ![0, 0, 0] g slices_S2x1x1024_S1x1x1024_0_0_0)
        shapeCasts_S1x1x1024_S1x1024 (ix2 (0 : Fin 1) d)
      = g (ix3 (0 : Fin 2) (0 : Fin 1) d) :=
  (shapeCast_1ab_ab_apply _ shapeCasts_S1x1x1024_S1x1024 (0 : Fin 1) d).trans
    (extractStridedSlice_apply _ g slices_S2x1x1024_S1x1x1024_0_0_0 _ (ix3 (0 : Fin 2) (0 : Fin 1) d) fun a => by
      match a with
      | ⟨0, _⟩ => rfl
      | ⟨1, _⟩ => rfl
      | ⟨2, _⟩ => exact (Nat.zero_add _).symm)

theorem row1 (g : S2x1x1024.Idx → EReal) (d : Fin 1024) :
    shapeCast (α := EReal) S1x1024 (extractStridedSlice (α := EReal) S1x1x1024 ![1, 0, 0] g slices_S2x1x1024_S1x1x1024_1_0_0)
        shapeCasts_S1x1x1024_S1x1024 (ix2 (0 : Fin 1) d)
      = g (ix3 (1 : Fin 2) (0 : Fin 1) d) :=
  (shapeCast_1ab_ab_apply _ shapeCasts_S1x1x1024_S1x1024 (0 : Fin 1) d).trans
    (extractStridedSlice_apply _ g slices_S2x1x1024_S1x1x1024_1_0_0 _ (ix3 (1 : Fin 2) (0 : Fin 1) d) fun a => by
      match a with
      | ⟨0, _⟩ => rfl
      | ⟨1, _⟩ => rfl
      | ⟨2, _⟩ => exact (Nat.zero_add _).symm)

theorem spread (x : FVec Ideal S_ .f32) (d : Fin 1024) :
    broadcastInDim (α := EReal) S1x1024 ![] bcast_S_S1x1024 x (ix2 (0 : Fin 1) d) = x ix0 :=
  broadcastInDim_apply _ bcast_S_S1x1024 x _ ix0 fun a => a.elim0

/-- The lines after the region at column d: the merged weighted row sum over the merged exponential sum. -/
theorem tailFn_apply (g4 g5 : S2x1x1.Idx → EReal) (g6 : S2x1x1024.Idx → EReal) (d : Fin 1024) :
    tailFn g4 g5 g6 (ix2 (0 : Fin 1) d)
      = Ideal.div
          (Ideal.exp (g4 (ix3 (0 : Fin 2) (0 : Fin 1) (0 : Fin 1))
              - max (g4 (ix3 (0 : Fin 2) (0 : Fin 1) (0 : Fin 1))) (g4 (ix3 (1 : Fin 2) (0 : Fin 1) (0 : Fin 1))))
              * g6 (ix3 (0 : Fin 2) (0 : Fin 1) d)
            + Ideal.exp (g4 (ix3 (1 : Fin 2) (0 : Fin 1) (0 : Fin 1))
              - max (g4 (ix3 (0 : Fin 2) (0 : Fin 1) (0 : Fin 1))) (g4 (ix3 (1 : Fin 2) (0 : Fin 1) (0 : Fin 1))))
              * g6 (ix3 (1 : Fin 2) (0 : Fin 1) d))
          (Ideal.exp (g4 (ix3 (0 : Fin 2) (0 : Fin 1) (0 : Fin 1))
              - max (g4 (ix3 (0 : Fin 2) (0 : Fin 1) (0 : Fin 1))) (g4 (ix3 (1 : Fin 2) (0 : Fin 1) (0 : Fin 1))))
              * g5 (ix3 (0 : Fin 2) (0 : Fin 1) (0 : Fin 1))
            + Ideal.exp (g4 (ix3 (1 : Fin 2) (0 : Fin 1) (0 : Fin 1))
              - max (g4 (ix3 (0 : Fin 2) (0 : Fin 1) (0 : Fin 1))) (g4 (ix3 (1 : Fin 2) (0 : Fin 1) (0 : Fin 1))))
              * g5 (ix3 (1 : Fin 2) (0 : Fin 1) (0 : Fin 1))) := by
  unfold tailFn
  simp only [Host.divf, addf, mulf, row0, row1, Ideal.hostDivf_def, Ideal.addf_def, Ideal.mulf_def]
  rw [spread _ d, spread _ d, spread _ d]
  simp only [Host.exp, addf, mulf, subf, maximumf, slot0, slot1,
    Ideal.addf_def, Ideal.mulf_def, Ideal.subf_def, Ideal.maximumf_def, Ideal.hostUnary_exp_def]

/-! ## The two halves' final states -/

variable (m : (ℓ : Loc nD τ sig) → Buf (Elt Ideal) ℓ) (c : Dev nD)

theorem half0 (hf : Finite m c) :
    Part (βr m c) (Hr m c) 0 8192 (Mn m c 7) (Ln m c 7) (fun d => An m c 7 d) := by
  have hN : cfg0.N = 16 := N_0
  have hlt : 7 < cfg0.N := by omega
  have e1 : Mn m c 7 = (outsAt0 m c 7 hlt).2.2.2.1 (ix2 (0 : Fin 1) (0 : Fin 1)) := by unfold Mn; exact dif_pos hlt
  have e2 : Ln m c 7 = (outsAt0 m c 7 hlt).2.2.2.2.1 (ix2 (0 : Fin 1) (0 : Fin 1)) := by unfold Ln; exact dif_pos hlt
  have e3 : (fun d => An m c 7 d) = fun d : Fin 1024 => (outsAt0 m c 7 hlt).2.2.2.2.2 (ix2 (0 : Fin 1) d) :=
    funext fun d => by unfold An; exact dif_pos hlt
  exact part_congr (carried m c (rows m c hf) 7 hlt) e1.symm e2.symm e3.symm

theorem half1 (hf : Finite m c) :
    Part (βr m c) (Hr m c) 8192 16384 (Mn m c 15) (Ln m c 15) (fun d => An m c 15 d) := by
  have hN : cfg0.N = 16 := N_0
  have hlt : 15 < cfg0.N := by omega
  have e1 : Mn m c 15 = (outsAt0 m c 15 hlt).2.2.2.1 (ix2 (0 : Fin 1) (0 : Fin 1)) := by unfold Mn; exact dif_pos hlt
  have e2 : Ln m c 15 = (outsAt0 m c 15 hlt).2.2.2.2.1 (ix2 (0 : Fin 1) (0 : Fin 1)) := by unfold Ln; exact dif_pos hlt
  have e3 : (fun d => An m c 15 d) = fun d : Fin 1024 => (outsAt0 m c 15 hlt).2.2.2.2.2 (ix2 (0 : Fin 1) d) :=
    funext fun d => by unfold An; exact dif_pos hlt
  exact part_congr (carried m c (rows m c hf) 15 hlt) e1.symm e2.symm e3.symm

/-- The kernel's result is the reference's result of the same arguments. -/
theorem result_eq (hf : Finite m c) :
    tailFn (G4 m c) (G5 m c) (G6 m c)
      = Cert.ReferenceIdeal.Read.val_main_v21 (F := Ideal) (A0 m c) (A1 m c) (A2 m c) (A3 m c) (A4 m c) := by
  funext i
  obtain ⟨u, d, rfl⟩ : ∃ (u : Fin 1) (d : Fin 1024), i = ix2 u d := ⟨i 0, i 1, eq_ix2 i⟩
  obtain rfl : u = 0 := Subsingleton.elim _ _
  rw [tailFn_apply, Cert.ReferenceIdeal.RefSide.result_apply]
  have hm := (half0 m c hf).merge (half1 m c hf) (by omega) (by omega)
  have hs : IsFin (Cert.ReferenceIdeal.RefSide.shift (A0 m c) (A1 m c) (A2 m c) (A3 m c) (A4 m c)) :=
    Cert.ReferenceIdeal.RefSide.shift_isFin _ _ _ _ _ (Finite.score m c hf)
  have hq := hm.quot (by omega) hs d
  have e7 : (8 * ((ix3 (0 : Fin 2) (0 : Fin 1) (0 : Fin 1) : S2x1x1.Idx) 0).val + 7) = 7 := rfl
  have e15 : (8 * ((ix3 (1 : Fin 2) (0 : Fin 1) (0 : Fin 1) : S2x1x1.Idx) 0).val + 7) = 15 := rfl
  show Ideal.div
      (Ideal.exp (Mn m c 7 - max (Mn m c 7) (Mn m c 15)) * An m c 7 d
        + Ideal.exp (Mn m c 15 - max (Mn m c 7) (Mn m c 15)) * An m c 15 d)
      (Ideal.exp (Mn m c 7 - max (Mn m c 7) (Mn m c 15)) * Ln m c 7
        + Ideal.exp (Mn m c 15 - max (Mn m c 7) (Mn m c 15)) * Ln m c 15) = _
  refine hq.trans ?_
  simp only [βr_eq m c hf, Hr_eq m c hf]

/-! ## The kernel's run, with its result named -/

/-- Every weakly fair execution of the kernel's program terminates with the result buffer at the merge of the carried
    values, and the argument arrays unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v37) = tailFn (G4 m c) (G5 m c) (G6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v37 (Pipeline.mem_restRefs_of main_v37 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.FiniteInputs.lean ====
/-
  The precondition, decoded: every entry of every argument array is a real number.

  The precondition is the conjunction, over the five arrays, of "every |x| is below +∞".  An extended real whose
  absolute value max x (-x) is below +∞ is neither +∞ nor -∞ (for -∞ the absolute value is +∞), so it is real.
-/
import proofs.«144839_j35124242547322_2_alg».proof.Pre_finite_inputs
import proofs.«144839_j35124242547322_2_alg».proof.Proof.LibOnlineSoftmax
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Decode

open Cert.Pre_finite_inputs Idealize.ShloMosaic Cert.Attn

variable [Facts]
open Facts

instance : Subsingleton S_.Idx := ⟨fun a b => funext fun d => d.elim0⟩

theorem ofBits_inf : Ideal.ofBits .f32 0x7F800000#32 = ⊤ := by simp [Ideal.ofBits, Ideal.ieee]

/-- An extended real whose absolute value is below +∞ is real. -/
theorem isFin_of_abs_lt {x : EReal} (h : max x (-x) < ⊤) : IsFin x := by
  refine isFin_of_lt ?_ (lt_of_le_of_lt (le_max_left _ _) h)
  rcases eq_or_ne x ⊥ with hb | hb
  · rw [hb] at h
    exact absurd h (by simp)
  · exact bot_lt_iff_ne_bot.mpr hb

/-- An entry that passes the comparison |x| < +∞ is real. -/
theorem isFin_of_cmp {S : Shape} (x : FVec Ideal S .f32) (hb : S_.BroadcastsInDim S (![] : Fin 0 → Fin S.rank)) (i : S.Idx)
    (e : cmpf .olt (Host.absf x) (broadcastInDim S ![] hb (constant (F := Ideal) S_ .f32 0x7F800000#32)) i = 1#1) :
    IsFin (x i) := by
  have e' : BitVec.ofBool (decide (max (x i) (-(x i)) < Ideal.ofBits .f32 0x7F800000#32)) = 1#1 := e
  rw [ofBits_inf] at e'
  refine isFin_of_abs_lt ?_
  by_contra hn
  rw [decide_eq_false hn] at e'
  exact absurd e' (by decide)

/-- The precondition gives every entry of the five arrays real. -/
theorem finite_of_pre (x0 : FVec Ideal S16384x1024 .f32) (x1 : FVec Ideal S1x1024 .f32) (x2 : FVec Ideal S1024x2048 .f32)
    (x3 : FVec Ideal S1024 .f32) (x4 : FVec Ideal S1024x1 .f32)
    (h : fn (F := Ideal) x0 x1 x2 x3 x4 = fun _ => 1#1) :
    (∀ i, IsFin (x0 i)) ∧ (∀ i, IsFin (x1 i)) ∧ (∀ i, IsFin (x2 i)) ∧ (∀ i, IsFin (x3 i)) ∧ (∀ i, IsFin (x4 i)) := by
  have h0 := congrFun h ValueIdx.ix0
  dsimp only [fn, fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h00, h1⟩ := IntOp.andi_eq_one.1 h01
  exact ⟨fun i => isFin_of_cmp x0 _ i (Host.reduce_andi_all _ _ _ _ _ h00 i),
    fun i => isFin_of_cmp x1 _ i (Host.reduce_andi_all _ _ _ _ _ h1 i),
    fun i => isFin_of_cmp x2 _ i (Host.reduce_andi_all _ _ _ _ _ h2 i),
    fun i => isFin_of_cmp x3 _ i (Host.reduce_andi_all _ _ _ _ _ h3 i),
    fun i => isFin_of_cmp x4 _ i (Host.reduce_andi_all _ _ _ _ _ h4 i)⟩

end Cert.Pre_finite_inputs.Decode

end
-- ==== Proof.lean ====
/-
  Additive attention over 16384 rows, computed by a streaming softmax in two halves, against the plain softmax.

  The reference scores every row (tanh of an affine map of the row joined with the query, contracted with a column),
  takes the softmax of the scores and the weighted sum of the rows.  The kernel scores the rows block by block with the
  same formula (the weight split into its two halves, the query's half folded into the bias), and never forms the
  softmax: per half of the rows it keeps a running shift, a running sum of shifted exponentials and a running weighted
  row sum, rescaling the sums whenever the shift grows; the host merges the two halves and divides.  Over the extended
  reals with real inputs the two agree: each half's running state is a partial softmax state whatever its shift
  (the shift starts at a large negative number, not at -∞, and that too is only a shift), two partial states merge
  into the whole, and the quotient of the whole state is the softmax-weighted sum with any real shift.  Distributing
  the rescaling over the sums and cancelling the common factor need the values real: the precondition is used.
  The three frames are the generated ones; the idealization rewrote nothing.
-/
import proofs.«144839_j35124242547322_2_alg».proof.Defs
import proofs.«144839_j35124242547322_2_alg».proof.Proof.Gen.Kernel
import proofs.«144839_j35124242547322_2_alg».proof.Proof.Gen.Kernel.Skeleton
import proofs.«144839_j35124242547322_2_alg».proof.Proof.Gen.Kernel.Launch
import proofs.«144839_j35124242547322_2_alg».proof.Proof.Gen.Kernel.Points
import proofs.«144839_j35124242547322_2_alg».proof.Proof.Gen.Kernel.Frame
import proofs.«144839_j35124242547322_2_alg».proof.Proof.Gen.KernelIdeal
import proofs.«144839_j35124242547322_2_alg».proof.Proof.Gen.KernelIdeal.Skeleton
import proofs.«144839_j35124242547322_2_alg».proof.Proof.Gen.KernelIdeal.Launch
import proofs.«144839_j35124242547322_2_alg».proof.Proof.Gen.KernelIdeal.Points
import proofs.«144839_j35124242547322_2_alg».proof.Proof.Gen.KernelIdeal.Frame
import proofs.«144839_j35124242547322_2_alg».proof.Proof.Gen.ReferenceIdeal
import proofs.«144839_j35124242547322_2_alg».proof.Proof.Gen.Pre_finite_inputs
import Idealize.ShloMosaic.Adequacy
import Idealize.ShloMosaic.Init

import proofs.«144839_j35124242547322_2_alg».proof.Proof.Result
import proofs.«144839_j35124242547322_2_alg».proof.Proof.FiniteInputs

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the same result: the kernel's merge of its two halves' running states is the reference's
    softmax-weighted sum of the same (real) arguments. -/
theorem algebraic : Cert.algebraic_KernelIdeal_ReferenceIdeal := by
  intro m ρ m' ρ' hpre hagree
  have hfin : ∀ c, Cert.KernelIdeal.Blocks.Finite m c := fun c => by
    obtain ⟨f0, f1, f2, f3, f4⟩ := Cert.Pre_finite_inputs.Decode.finite_of_pre _ _ _ _ _ (hpre c)
    exact ⟨f0, f1, f2, f3, f4⟩
  refine ⟨fun c => Cert.KernelIdeal.KValue.tailFn (Cert.KernelIdeal.KValue.G4 m c) (Cert.KernelIdeal.KValue.G5 m c)
    (Cert.KernelIdeal.KValue.G6 m c), Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v21_eq, (hagree c).1, (hagree c).2.1, (hagree c).2.2.1, (hagree c).2.2.2.1,
    (hagree c).2.2.2.2]
  exact (Cert.KernelIdeal.Result.result_eq m c (hfin c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
